-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v91)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v91) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x300000 : Shape := ⟨2, ![2, 300000]⟩
abbrev S50000 : Shape := ⟨1, ![50000]⟩
abbrev S128x256 : Shape := ⟨2, ![128, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S128x32 : Shape := ⟨2, ![128, 32]⟩
abbrev S32 : Shape := ⟨1, ![32]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_

variable [Facts]

def fn_part3 {F : FTy → Type} [FloatOps F] (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  main_v53

def fn_part2 {F : FTy → Type} [FloatOps F] (main_arg9 : FVec F S256x128 .f32) (main_arg10 : FVec F S128 .f32) (main_arg11 : FVec F S128x32 .f32) (main_arg12 : FVec F S32 .f32) (main_v33 : IVec S_ 1) : IVec S_ 1 :=
  let main_v34 : FVec F S256x128 .f32 := Host.absf main_arg9
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x32 .f32 := Host.absf main_arg11
  let main_cst_16 : FVec F S_ .f32 := constant S_ .f32 0x7F800000#32
  let main_v45 : FVec F S128x32 .f32 := broadcastInDim S128x32 ![] bcast_S_S128x32 main_cst_16
  let main_v46 : IVec S128x32 1 := cmpf .olt main_v44 main_v45
  let main_c_17 : IVec S_ 1 := constantI S_ 1 1#1
  let main_v47 : IVec S_ 1 := (fun x v => Host.reduce IntOp.andi x v reducesTo_S128x32_S_d0_1 h_S_) main_v46 main_c_17
  let main_v48 : IVec S_ 1 := andi main_v43 main_v47
  let main_v49 : FVec F S32 .f32 := Host.absf main_arg12
  let main_cst_18 : FVec F S_ .f32 := constant S_ .f32 0x7F800000#32
  let main_v50 : FVec F S32 .f32 := broadcastInDim S32 ![] bcast_S_S32 main_cst_18
  fn_part3 (F := F) main_v48 main_v49 main_v50

def fn_part1 {F : FTy → Type} [FloatOps F] (main_arg6 : FVec F S256 .f32) (main_arg7 : FVec F S256x256 .f32) (main_arg8 : FVec F S256 .f32) (main_arg9 : FVec F S256x128 .f32) (main_arg10 : FVec F S128 .f32) (main_arg11 : FVec F S128x32 .f32) (main_arg12 : FVec F S32 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg7
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S50000x128 .f32) (main_arg1 : IVec S2x300000 32) (main_arg2 : IVec S50000 32) (main_arg3 : FVec F S128x256 .f32) (main_arg4 : FVec F S256 .f32) (main_arg5 : FVec F S256x256 .f32) (main_arg6 : FVec F S256 .f32) (main_arg7 : FVec F S256x256 .f32) (main_arg8 : FVec F S256 .f32) (main_arg9 : FVec F S256x128 .f32) (main_arg10 : FVec F S128 .f32) (main_arg11 : FVec F S128x32 .f32) (main_arg12 : FVec F S32 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg3
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg5
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg6 main_arg7 main_arg8 main_arg9 main_arg10 main_arg11 main_arg12 main_v13 main_v16
-- ==== Kernel.lean ====
abbrev S50000x128 : Shape := ⟨2, ![50000, 128]⟩
abbrev S2x300000 : Shape := ⟨2, ![2, 300000]⟩
abbrev S50000 : Shape := ⟨1, ![50000]⟩
abbrev S128x256 : Shape := ⟨2, ![128, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S128x32 : Shape := ⟨2, ![128, 32]⟩
abbrev S32 : Shape := ⟨1, ![32]⟩
abbrev S1x300000 : Shape := ⟨2, ![1, 300000]⟩
abbrev S300000 : Shape := ⟨1, ![300000]⟩
abbrev S350000 : Shape := ⟨1, ![350000]⟩
abbrev S_ : Shape := ⟨0, ![]⟩
abbrev S350000x1 : Shape := ⟨2, ![350000, 1]⟩
abbrev S50000x256 : Shape := ⟨2, ![50000, 256]⟩
abbrev S2000x128 : Shape := ⟨2, ![2000, 128]⟩
abbrev S2000x256 : Shape := ⟨2, ![2000, 256]⟩
abbrev S350000x256 : Shape := ⟨2, ![350000, 256]⟩
abbrev S1x256 : Shape := ⟨2, ![1, 256]⟩
abbrev S2048x256 : Shape := ⟨2, ![2048, 256]⟩
abbrev S50000x1 : Shape := ⟨2, ![50000, 1]⟩
abbrev S2048 : Shape := ⟨1, ![2048]⟩
abbrev S2048x1 : Shape := ⟨2, ![2048, 1]⟩
abbrev S1x128 : Shape := ⟨2, ![1, 128]⟩
abbrev S1x32 : Shape := ⟨2, ![1, 32]⟩
abbrev S2048x32 : Shape := ⟨2, ![2048, 32]⟩
abbrev S2048x128 : Shape := ⟨2, ![2048, 128]⟩

abbrev nBuf : Space → Nat
  | .hbm => 129
  | .vmem => 28
  | .smem => 0
  | _ => 0

abbrev hbmTy0_0 (i : Nat) : BufTy := match i % 128 with
  | 0 => ⟨S50000x128, .f32⟩
  | 1 => ⟨S2x300000, .i32⟩
  | 2 => ⟨S50000, .i32⟩
  | 3 => ⟨S128x256, .f32⟩
  | 4 => ⟨S256, .f32⟩
  | 5 => ⟨S256x256, .f32⟩
  | 6 => ⟨S256, .f32⟩
  | 7 => ⟨S256x256, .f32⟩
  | 8 => ⟨S256, .f32⟩
  | 9 => ⟨S256x128, .f32⟩
  | 10 => ⟨S128, .f32⟩
  | 11 => ⟨S128x32, .f32⟩
  | 12 => ⟨S32, .f32⟩
  | 13 => ⟨S50000, .i32⟩
  | 14 => ⟨S1x300000, .i32⟩
  | 15 => ⟨S300000, .i32⟩
  | 16 => ⟨S350000, .i32⟩
  | 17 => ⟨S1x300000, .i32⟩
  | 18 => ⟨S300000, .i32⟩
  | 19 => ⟨S350000, .i32⟩
  | 20 => ⟨S_, .f32⟩
  | 21 => ⟨S350000, .f32⟩
  | 22 => ⟨S_, .f32⟩
  | 23 => ⟨S50000, .f32⟩
  | 24 => ⟨S350000x1, .i32⟩
  | 25 => ⟨S50000, .f32⟩
  | 26 => ⟨S_, .f32⟩
  | 27 => ⟨S50000, .f32⟩
  | 28 => ⟨S50000, .i1⟩
  | 29 => ⟨S_, .f32⟩
  | 30 => ⟨S50000, .f32⟩
  | 31 => ⟨S50000, .f32⟩
  | 32 => ⟨S_, .f32⟩
  | 33 => ⟨S_, .f32⟩
  | 34 => ⟨S50000, .f32⟩
  | 35 => ⟨S50000, .f32⟩
  | 36 => ⟨S_, .i32⟩
  | 37 => ⟨S350000, .i32⟩
  | 38 => ⟨S350000, .i1⟩
  | 39 => ⟨S_, .i32⟩
  | 40 => ⟨S350000, .i32⟩
  | 41 => ⟨S350000, .i32⟩
  | 42 => ⟨S350000, .i32⟩
  | 43 => ⟨S350000x1, .i32⟩
  | 44 => ⟨S350000, .f32⟩
  | 45 => ⟨S_, .i32⟩
  | 46 => ⟨S350000, .i32⟩
  | 47 => ⟨S350000, .i1⟩
  | 48 => ⟨S_, .i32⟩
  | 49 => ⟨S350000, .i32⟩
  | 50 => ⟨S350000, .i32⟩
  | 51 => ⟨S350000, .i32⟩
  | 52 => ⟨S350000x1, .i32⟩
  | 53 => ⟨S350000, .f32⟩
  | 54 => ⟨S350000, .f32⟩
  | 55 => ⟨S50000x256, .f32⟩
  | 56 => ⟨S_, .i32⟩
  | 57 => ⟨S350000, .i32⟩
  | 58 => ⟨S350000, .i1⟩
  | 59 => ⟨S_, .i32⟩
  | 60 => ⟨S350000, .i32⟩
  | 61 => ⟨S350000, .i32⟩
  | 62 => ⟨S350000, .i32⟩
  | 63 => ⟨S350000x1, .i32⟩
  | 64 => ⟨S350000x256, .f32⟩
  | 65 => ⟨S350000x1, .f32⟩
  | 66 => ⟨S350000x256, .f32⟩
  | 67 => ⟨S350000x256, .f32⟩
  | 68 => ⟨S_, .f32⟩
  | 69 => ⟨S50000x256, .f32⟩
  | 70 => ⟨S350000x1, .i32⟩
  | 71 => ⟨S50000x256, .f32⟩
  | 72 => ⟨S1x256, .f32⟩
  | 73 => ⟨S50000x256, .f32⟩
  | 74 => ⟨S_, .i32⟩
  | 75 => ⟨S350000, .i32⟩
  | 76 => ⟨S350000, .i1⟩
  | 77 => ⟨S_, .i32⟩
  | 78 => ⟨S350000, .i32⟩
  | 79 => ⟨S350000, .i32⟩
  | 80 => ⟨S350000, .i32⟩
  | 81 => ⟨S350000x1, .i32⟩
  | 82 => ⟨S350000x256, .f32⟩
  | 83 => ⟨S350000x1, .f32⟩
  | 84 => ⟨S350000x256, .f32⟩
  | 85 => ⟨S350000x256, .f32⟩
  | 86 => ⟨S_, .f32⟩
  | 87 => ⟨S50000x256, .f32⟩
  | 88 => ⟨S350000x1, .i32⟩
  | 89 => ⟨S50000x256, .f32⟩
  | 90 => ⟨S1x256, .f32⟩
  | 91 => ⟨S50000x256, .f32⟩
  | 92 => ⟨S_, .i32⟩
  | 93 => ⟨S350000, .i32⟩
  | 94 => ⟨S350000, .i1⟩
  | 95 => ⟨S_, .i32⟩
  | 96 => ⟨S350000, .i32⟩
  | 97 => ⟨S350000, .i32⟩
  | 98 => ⟨S350000, .i32⟩
  | 99 => ⟨S350000x1, .i32⟩
  | 100 => ⟨S350000x256, .f32⟩
  | 101 => ⟨S350000x1, .f32⟩
  | 102 => ⟨S350000x256, .f32⟩
  | 103 => ⟨S350000x256, .f32⟩
  | 104 => ⟨S_, .f32⟩
  | 105 => ⟨S50000x256, .f32⟩
  | 106 => ⟨S350000x1, .i32⟩
  | 107 => ⟨S50000x256, .f32⟩
  | 108 => ⟨S1x256, .f32⟩
  | 109 => ⟨S50000x256, .f32⟩
  | 110 => ⟨S_, .f32⟩
  | 111 => ⟨S2048x256, .f32⟩
  | 112 => ⟨S50000x1, .i32⟩
  | 113 => ⟨S2048x256, .f32⟩
  | 114 => ⟨S_, .f32⟩
  | 115 => ⟨S50000, .f32⟩
  | 116 => ⟨S_, .f32⟩
  | 117 => ⟨S2048, .f32⟩
  | 118 => ⟨S50000x1, .i32⟩
  | 119 => ⟨S2048, .f32⟩
  | 120 => ⟨S_, .f32⟩
  | 121 => ⟨S2048, .f32⟩
  | 122 => ⟨S2048, .f32⟩
  | 123 => ⟨S2048x1, .f32⟩
  | 124 => ⟨S2048x256, .f32⟩
  | 125 => ⟨S2048x256, .f32⟩
  | 126 => ⟨S1x128, .f32⟩
  | 127 => ⟨S1x32, .f32⟩
  | _ => ⟨S50000x128, .f32⟩

abbrev hbmTy0_1 (i : Nat) : BufTy := match i % 128 with
  | 0 => ⟨S2048x32, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x256, .f32⟩
  | .local _ .vmem, ⟨3, _⟩ => ⟨S2000x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S1x256, .f32⟩
  | .local _ .vmem, ⟨8, _⟩ => ⟨S256x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S1x256, .f32⟩
  | .local _ .vmem, ⟨14, _⟩ => ⟨S256x256, .f32⟩
  | .local _ .vmem, ⟨15, _⟩ => ⟨S2000x256, .f32⟩
  | .local _ .vmem, ⟨16, _⟩ => ⟨S2000x256, .f32⟩
  | .local _ .vmem, ⟨17, _⟩ => ⟨S2000x256, .f32⟩
  | .local _ .vmem, ⟨18, _⟩ => ⟨S2000x256, .f32⟩
  | .local _ .vmem, ⟨19, _⟩ => ⟨S1x256, .f32⟩
  | .local _ .vmem, ⟨20, _⟩ => ⟨S2000x256, .f32⟩
  | .local _ .vmem, ⟨21, _⟩ => ⟨S2000x256, .f32⟩
  | .local _ .vmem, ⟨22, _⟩ => ⟨S2048x256, .f32⟩
  | .local _ .vmem, ⟨23, _⟩ => ⟨S256x128, .f32⟩
  | .local _ .vmem, ⟨24, _⟩ => ⟨S1x128, .f32⟩
  | .local _ .vmem, ⟨25, _⟩ => ⟨S128x32, .f32⟩
  | .local _ .vmem, ⟨26, _⟩ => ⟨S1x32, .f32⟩
  | .local _ .vmem, ⟨27, _⟩ => ⟨S2048x32, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_cst_2 : Ref sig .tc := ⟨.hbm, 29, rfl⟩
abbrev main_v13 : Ref sig .tc := ⟨.hbm, 30, rfl⟩
abbrev main_v14 : Ref sig .tc := ⟨.hbm, 31, rfl⟩
abbrev main_cst_3 : Ref sig .tc := ⟨.hbm, 32, rfl⟩
abbrev main_call0_v0 : Ref sig .tc := ⟨.hbm, 33, rfl⟩
abbrev main_call0_v1 : Ref sig .tc := ⟨.hbm, 34, rfl⟩
abbrev main_v15 : Ref sig .tc := ⟨.hbm, 35, rfl⟩
abbrev main_c : Ref sig .tc := ⟨.hbm, 36, rfl⟩
abbrev main_v16 : Ref sig .tc := ⟨.hbm, 37, rfl⟩
abbrev main_v17 : Ref sig .tc := ⟨.hbm, 38, rfl⟩
abbrev main_c_4 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_c_5 : Ref sig .tc := ⟨.hbm, 45, rfl⟩
abbrev main_v23 : Ref sig .tc := ⟨.hbm, 46, rfl⟩
abbrev main_v24 : Ref sig .tc := ⟨.hbm, 47, rfl⟩
abbrev main_c_6 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_c_7 : Ref sig .tc := ⟨.hbm, 56, rfl⟩
abbrev main_v32 : Ref sig .tc := ⟨.hbm, 57, rfl⟩
abbrev main_v33 : Ref sig .tc := ⟨.hbm, 58, rfl⟩
abbrev main_c_8 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_cst_9 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_c_10 : Ref sig .tc := ⟨.hbm, 74, rfl⟩
abbrev main_v47 : Ref sig .tc := ⟨.hbm, 75, rfl⟩
abbrev main_v48 : Ref sig .tc := ⟨.hbm, 76, rfl⟩
abbrev main_c_11 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_cst_12 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_c_13 : Ref sig .tc := ⟨.hbm, 92, rfl⟩
abbrev main_v62 : Ref sig .tc := ⟨.hbm, 93, rfl⟩
abbrev main_v63 : Ref sig .tc := ⟨.hbm, 94, rfl⟩
abbrev main_c_14 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_cst_15 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_cst_16 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_cst_17 : Ref sig .tc := ⟨.hbm, 114, rfl⟩
abbrev main_v80 : Ref sig .tc := ⟨.hbm, 115, rfl⟩
abbrev main_cst_18 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_cst_19 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc4_stg0_0 : Ref sig .tc := ⟨.vmem, 22, rfl⟩
abbrev cc4_stg1_0 : Ref sig .tc := ⟨.vmem, 23, rfl⟩
abbrev cc4_stg2_0 : Ref sig .tc := ⟨.vmem, 24, rfl⟩
abbrev cc4_stg3_0 : Ref sig .tc := ⟨.vmem, 25, rfl⟩
abbrev cc4_stg4_0 : Ref sig .tc := ⟨.vmem, 26, rfl⟩
abbrev cc4_stg5_0 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21
abbrev cc4_sem0_0 : DmaSem sig := 22
abbrev cc4_sem1_0 : DmaSem sig := 23
abbrev cc4_sem2_0 : DmaSem sig := 24
abbrev cc4_sem3_0 : DmaSem sig := 25
abbrev cc4_sem4_0 : DmaSem sig := 26
abbrev cc4_sem5_0 : DmaSem sig := 27

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S256x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S2048x256 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S256x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x32 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x32 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S2048x32 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

class Facts₀ : Prop where
  slices_S2x300000_S1x300000_0_0 : S2x300000.Slices ![0, 0] S1x300000
  shapeCasts_S1x300000_S300000 : S1x300000.ShapeCasts S300000
  concatenates_S300000_S50000_S350000_d0 : Shape.Concatenates [S300000, S50000] S350000 0
  slices_S2x300000_S1x300000_1_0 : S2x300000.Slices ![1, 0] S1x300000
  bcast_S_S350000 : S_.BroadcastsInDim S350000 (![] : Fin 0 → Fin S350000.rank)
  bcast_S_S50000 : S_.BroadcastsInDim S50000 (![] : Fin 0 → Fin S50000.rank)
  bcast_S350000_S350000x1_0 : S350000.BroadcastsInDim S350000x1 (![0] : Fin 1 → Fin S350000x1.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S2000x256_S2000x256_0_0 : ∀ a, (![0, 0] : Fin 2 → Nat) a + S2000x256.size a ≤ S2000x256.size a
  h_S2000x256 : 0 < S2000x256.numel
  bcast_S350000x1_S350000x256_0_1 : S350000x1.BroadcastsInDim S350000x256 (![0, 1] : Fin 2 → Fin S350000x256.rank)
  bcast_S_S50000x256 : S_.BroadcastsInDim S50000x256 (![] : Fin 0 → Fin S50000x256.rank)
  shapeCasts_S256_S1x256 : S256.ShapeCasts S1x256
  shapeCasts_S2000x256_S2000x256 : S2000x256.ShapeCasts S2000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x256_S256x256_0_0 : ∀ a, (![0, 0] : Fin 2 → Nat) a + S256x256.size a ≤ S256x256.size a
  h_S256x256 : 0 < S256x256.numel
  bcast_S_S2048x256 : S_.BroadcastsInDim S2048x256 (![] : Fin 0 → Fin S2048x256.rank)
  bcast_S50000_S50000x1_0 : S50000.BroadcastsInDim S50000x1 (![0] : Fin 1 → Fin S50000x1.rank)
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x256_0_1 : S2048x1.BroadcastsInDim S2048x256 (![0, 1] : Fin 2 → Fin S2048x256.rank)
  shapeCasts_S128_S1x128 : S128.ShapeCasts S1x128
  shapeCasts_S32_S1x32 : S32.ShapeCasts S1x32
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  inb_S128x32_S128x32_0_0 : ∀ a, (![0, 0] : Fin 2 → Nat) a + S128x32.size a ≤ S128x32.size a
  h_S128x32 : 0 < S128x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2048x32 : S1x32.Broadcasts S2048x32
  inb_S2048x32_S2048x32_0_0 : ∀ a, (![0, 0] : Fin 2 → Nat) a + S2048x32.size a ≤ S2048x32.size a
  h_S2048x32 : 0 < S2048x32.numel
  scatter_S50000_S350000x1_S350000_n_0_0_1_wf : ScatterDims.WF S50000 S350000x1 S350000 [] [0] [0] 1
  gather_S50000_S350000x1_S350000_n_0_n_n_0_1_1_wf : GatherDims.WF S50000 S350000x1 S350000 [] [0] [] [0] [] 1 ![1]
  dot_S2000x128_S128x256_S2000x256_1_0_0_1_n_n_wf : DotDims.WF S2000x128 S128x256 S2000x256 [1] [0] [0] [1] [] []
  gather_S50000x256_S350000x1_S350000x256_1_0_n_n_0_1_1256_wf : GatherDims.WF S50000x256 S350000x1 S350000x256 [1] [0] [] [0] [] 1 ![1, 256]
  scatter_S50000x256_S350000x1_S350000x256_1_0_0_1_wf : ScatterDims.WF S50000x256 S350000x1 S350000x256 [1] [0] [0] 1
  dot_S2000x256_S256x256_S2000x256_1_0_0_1_n_n_wf : DotDims.WF S2000x256 S256x256 S2000x256 [1] [0] [0] [1] [] []
  scatter_S2048x256_S50000x1_S50000x256_1_0_0_1_wf : ScatterDims.WF S2048x256 S50000x1 S50000x256 [1] [0] [0] 1
  scatter_S2048_S50000x1_S50000_n_0_0_1_wf : ScatterDims.WF S2048 S50000x1 S50000 [] [0] [0] 1
  dot_S2048x256_S256x128_S2048x128_1_0_0_1_n_n_wf : DotDims.WF S2048x256 S256x128 S2048x128 [1] [0] [0] [1] [] []
  dot_S2048x128_S128x32_S2048x32_1_0_0_1_n_n_wf : DotDims.WF S2048x128 S128x32 S2048x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .f32 = 32 ∨ (Rect.block (s := S50000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x256.size a ≤ S50000x256.size a
  hwx1_3 : ∀ i : grid1.Coords, EltTy.bits .f32 = 32 ∨ (Rect.block (s := S50000x256) S2000x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x256.size a ≤ S1x256.size a
  hwx2_1 : ∀ i : grid2.Coords, EltTy.bits .f32 = 32 ∨ (Rect.block (s := S1x256) S1x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S256x256.size a
  hwx2_2 : ∀ i : grid2.Coords, EltTy.bits .f32 = 32 ∨ (Rect.block (s := S256x256) S256x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x256.size a ≤ S50000x256.size a
  hwx2_3 : ∀ i : grid2.Coords, EltTy.bits .f32 = 32 ∨ (Rect.block (s := S50000x256) S2000x256.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .f32 = 32 ∨ (Rect.block (s := S50000x256) S2000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x256.size a ≤ S1x256.size a
  hwx3_1 : ∀ i : grid3.Coords, EltTy.bits .f32 = 32 ∨ (Rect.block (s := S1x256) S1x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x256.size a ≤ S50000x256.size a
  hwx3_2 : ∀ i : grid3.Coords, EltTy.bits .f32 = 32 ∨ (Rect.block (s := S50000x256) S2000x256.size (cc3_transform_2 i) (hinb3_2 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S2048x256.size a ≤ S2048x256.size a
  hwx4_0 : ∀ i : grid4.Coords, EltTy.bits .f32 = 32 ∨ (Rect.block (s := S2048x256) S2048x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x128.size a ≤ S256x128.size a
  hwx4_1 : ∀ i : grid4.Coords, EltTy.bits .f32 = 32 ∨ (Rect.block (s := S256x128) S256x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x32.size a ≤ S128x32.size a
  hwx4_3 : ∀ i : grid4.Coords, EltTy.bits .f32 = 32 ∨ (Rect.block (s := S128x32) S128x32.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x32.size a ≤ S1x32.size a
  hwx4_4 : ∀ i : grid4.Coords, EltTy.bits .f32 = 32 ∨ (Rect.block (s := S1x32) S1x32.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S2048x32.size a ≤ S2048x32.size a
  hwx4_5 : ∀ i : grid4.Coords, EltTy.bits .f32 = 32 ∨ (Rect.block (s := S2048x32) S2048x32.size (cc4_transform_5 i) (hinb4_5 i)).WholeWords (EltTy.packing .f32)

variable [Facts₀]

def scatter_S50000_S350000x1_S350000_n_0_0_1 : ScatterDims S50000 S350000x1 S350000 where
  updateWindowDims := []
  insertedWindowDims := [0]
  scatterDimsToOperandDims := [0]
  indexVectorDim := 1
  wf := scatter_S50000_S350000x1_S350000_n_0_0_1_wf
def gather_S50000_S350000x1_S350000_n_0_n_n_0_1_1 : GatherDims S50000 S350000x1 S350000 where
  offsetDims := []
  collapsedSliceDims := [0]
  operandBatchingDims := []
  startIndicesBatchingDims := []
  startIndexMap := [0]
  indexVectorDim := 1
  sliceSizes := ![1]
  wf := gather_S50000_S350000x1_S350000_n_0_n_n_0_1_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x256_S350000x1_S350000x256_1_0_n_n_0_1_1256 : GatherDims S50000x256 S350000x1 S350000x256 where
  offsetDims := [1]
  collapsedSliceDims := [0]
  operandBatchingDims := []
  startIndicesBatchingDims := []
  startIndexMap := [0]
  indexVectorDim := 1
  sliceSizes := ![1, 256]
  wf := gather_S50000x256_S350000x1_S350000x256_1_0_n_n_0_1_1256_wf
def scatter_S50000x256_S350000x1_S350000x256_1_0_0_1 : ScatterDims S50000x256 S350000x1 S350000x256 where
  updateWindowDims := [1]
  insertedWindowDims := [0]
  scatterDimsToOperandDims := [0]
  indexVectorDim := 1
  wf := scatter_S50000x256_S350000x1_S350000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def scatter_S2048x256_S50000x1_S50000x256_1_0_0_1 : ScatterDims S2048x256 S50000x1 S50000x256 where
  updateWindowDims := [1]
  insertedWindowDims := [0]
  scatterDimsToOperandDims := [0]
  indexVectorDim := 1
  wf := scatter_S2048x256_S50000x1_S50000x256_1_0_0_1_wf
def scatter_S2048_S50000x1_S50000_n_0_0_1 : ScatterDims S2048 S50000x1 S50000 where
  updateWindowDims := []
  insertedWindowDims := [0]
  scatterDimsToOperandDims := [0]
  indexVectorDim := 1
  wf := scatter_S2048_S50000x1_S50000_n_0_0_1_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf
def dot_S2048x128_S128x32_S2048x32_1_0_0_1_n_n : DotDims S2048x128 S128x32 S2048x32 where
  lhsContracting := [1]
  rhsContracting := [0]
  lhsNonContracting := [0]
  rhsNonContracting := [1]
  lhsBatch := []
  rhsBatch := []
  wf := dot_S2048x128_S128x32_S2048x32_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46) S2000x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v59) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v60) S1x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S256x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v61) S2000x256.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v74) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v75) S1x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v76) S2000x256.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v88) S2048x256.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg9) S256x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v89) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg11) S128x32.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v90) S1x32.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v91) S2048x32.size cc4_transform_5 reads4_5 true true 1 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S50000x128 : Shape := ⟨2, ![50000, 128]⟩
abbrev S2x300000 : Shape := ⟨2, ![2, 300000]⟩
abbrev S50000 : Shape := ⟨1, ![50000]⟩
abbrev S128x256 : Shape := ⟨2, ![128, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S128x32 : Shape := ⟨2, ![128, 32]⟩
abbrev S32 : Shape := ⟨1, ![32]⟩
abbrev S1x300000 : Shape := ⟨2, ![1, 300000]⟩
abbrev S300000 : Shape := ⟨1, ![300000]⟩
abbrev S350000 : Shape := ⟨1, ![350000]⟩
abbrev S_ : Shape := ⟨0, ![]⟩
abbrev S350000x1 : Shape := ⟨2, ![350000, 1]⟩
abbrev S50000x256 : Shape := ⟨2, ![50000, 256]⟩
abbrev S350000x256 : Shape := ⟨2, ![350000, 256]⟩
abbrev S1x256 : Shape := ⟨2, ![1, 256]⟩
abbrev S2048x256 : Shape := ⟨2, ![2048, 256]⟩
abbrev S50000x1 : Shape := ⟨2, ![50000, 1]⟩
abbrev S2048 : Shape := ⟨1, ![2048]⟩
abbrev S2048x1 : Shape := ⟨2, ![2048, 1]⟩
abbrev S2048x128 : Shape := ⟨2, ![2048, 128]⟩
abbrev S1x128 : Shape := ⟨2, ![1, 128]⟩
abbrev S2048x32 : Shape := ⟨2, ![2048, 32]⟩
abbrev S1x32 : Shape := ⟨2, ![1, 32]⟩

abbrev nBuf : Space → Nat
  | .hbm => 151
  | .vmem => 0
  | .smem => 0
  | _ => 0

abbrev hbmTy0_0 (i : Nat) : BufTy := match i % 128 with
  | 0 => ⟨S50000x128, .f32⟩
  | 1 => ⟨S2x300000, .i32⟩
  | 2 => ⟨S50000, .i32⟩
  | 3 => ⟨S128x256, .f32⟩
  | 4 => ⟨S256, .f32⟩
  | 5 => ⟨S256x256, .f32⟩
  | 6 => ⟨S256, .f32⟩
  | 7 => ⟨S256x256, .f32⟩
  | 8 => ⟨S256, .f32⟩
  | 9 => ⟨S256x128, .f32⟩
  | 10 => ⟨S128, .f32⟩
  | 11 => ⟨S128x32, .f32⟩
  | 12 => ⟨S32, .f32⟩
  | 13 => ⟨S50000, .i32⟩
  | 14 => ⟨S1x300000, .i32⟩
  | 15 => ⟨S300000, .i32⟩
  | 16 => ⟨S350000, .i32⟩
  | 17 => ⟨S1x300000, .i32⟩
  | 18 => ⟨S300000, .i32⟩
  | 19 => ⟨S350000, .i32⟩
  | 20 => ⟨S_, .f32⟩
  | 21 => ⟨S350000, .f32⟩
  | 22 => ⟨S_, .f32⟩
  | 23 => ⟨S50000, .f32⟩
  | 24 => ⟨S350000x1, .i32⟩
  | 25 => ⟨S50000, .f32⟩
  | 26 => ⟨S_, .f32⟩
  | 27 => ⟨S50000, .f32⟩
  | 28 => ⟨S50000, .i1⟩
  | 29 => ⟨S_, .f32⟩
  | 30 => ⟨S50000, .f32⟩
  | 31 => ⟨S50000, .f32⟩
  | 32 => ⟨S_, .f32⟩
  | 33 => ⟨S_, .f32⟩
  | 34 => ⟨S50000, .f32⟩
  | 35 => ⟨S50000, .f32⟩
  | 36 => ⟨S_, .i32⟩
  | 37 => ⟨S350000, .i32⟩
  | 38 => ⟨S350000, .i1⟩
  | 39 => ⟨S_, .i32⟩
  | 40 => ⟨S350000, .i32⟩
  | 41 => ⟨S350000, .i32⟩
  | 42 => ⟨S350000, .i32⟩
  | 43 => ⟨S350000x1, .i32⟩
  | 44 => ⟨S350000, .f32⟩
  | 45 => ⟨S_, .i32⟩
  | 46 => ⟨S350000, .i32⟩
  | 47 => ⟨S350000, .i1⟩
  | 48 => ⟨S_, .i32⟩
  | 49 => ⟨S350000, .i32⟩
  | 50 => ⟨S350000, .i32⟩
  | 51 => ⟨S350000, .i32⟩
  | 52 => ⟨S350000x1, .i32⟩
  | 53 => ⟨S350000, .f32⟩
  | 54 => ⟨S350000, .f32⟩
  | 55 => ⟨S50000x256, .f32⟩
  | 56 => ⟨S_, .i32⟩
  | 57 => ⟨S350000, .i32⟩
  | 58 => ⟨S350000, .i1⟩
  | 59 => ⟨S_, .i32⟩
  | 60 => ⟨S350000, .i32⟩
  | 61 => ⟨S350000, .i32⟩
  | 62 => ⟨S350000, .i32⟩
  | 63 => ⟨S350000x1, .i32⟩
  | 64 => ⟨S350000x256, .f32⟩
  | 65 => ⟨S350000x1, .f32⟩
  | 66 => ⟨S350000x256, .f32⟩
  | 67 => ⟨S350000x256, .f32⟩
  | 68 => ⟨S_, .f32⟩
  | 69 => ⟨S50000x256, .f32⟩
  | 70 => ⟨S350000x1, .i32⟩
  | 71 => ⟨S50000x256, .f32⟩
  | 72 => ⟨S1x256, .f32⟩
  | 73 => ⟨S50000x256, .f32⟩
  | 74 => ⟨S50000x256, .f32⟩
  | 75 => ⟨S_, .f32⟩
  | 76 => ⟨S50000x256, .f32⟩
  | 77 => ⟨S50000x256, .f32⟩
  | 78 => ⟨S50000x256, .f32⟩
  | 79 => ⟨S_, .i32⟩
  | 80 => ⟨S350000, .i32⟩
  | 81 => ⟨S350000, .i1⟩
  | 82 => ⟨S_, .i32⟩
  | 83 => ⟨S350000, .i32⟩
  | 84 => ⟨S350000, .i32⟩
  | 85 => ⟨S350000, .i32⟩
  | 86 => ⟨S350000x1, .i32⟩
  | 87 => ⟨S350000x256, .f32⟩
  | 88 => ⟨S350000x1, .f32⟩
  | 89 => ⟨S350000x256, .f32⟩
  | 90 => ⟨S350000x256, .f32⟩
  | 91 => ⟨S_, .f32⟩
  | 92 => ⟨S50000x256, .f32⟩
  | 93 => ⟨S350000x1, .i32⟩
  | 94 => ⟨S50000x256, .f32⟩
  | 95 => ⟨S1x256, .f32⟩
  | 96 => ⟨S50000x256, .f32⟩
  | 97 => ⟨S50000x256, .f32⟩
  | 98 => ⟨S_, .f32⟩
  | 99 => ⟨S50000x256, .f32⟩
  | 100 => ⟨S50000x256, .f32⟩
  | 101 => ⟨S50000x256, .f32⟩
  | 102 => ⟨S_, .i32⟩
  | 103 => ⟨S350000, .i32⟩
  | 104 => ⟨S350000, .i1⟩
  | 105 => ⟨S_, .i32⟩
  | 106 => ⟨S350000, .i32⟩
  | 107 => ⟨S350000, .i32⟩
  | 108 => ⟨S350000, .i32⟩
  | 109 => ⟨S350000x1, .i32⟩
  | 110 => ⟨S350000x256, .f32⟩
  | 111 => ⟨S350000x1, .f32⟩
  | 112 => ⟨S350000x256, .f32⟩
  | 113 => ⟨S350000x256, .f32⟩
  | 114 => ⟨S_, .f32⟩
  | 115 => ⟨S50000x256, .f32⟩
  | 116 => ⟨S350000x1, .i32⟩
  | 117 => ⟨S50000x256, .f32⟩
  | 118 => ⟨S1x256, .f32⟩
  | 119 => ⟨S50000x256, .f32⟩
  | 120 => ⟨S50000x256, .f32⟩
  | 121 => ⟨S_, .f32⟩
  | 122 => ⟨S50000x256, .f32⟩
  | 123 => ⟨S50000x256, .f32⟩
  | 124 => ⟨S_, .f32⟩
  | 125 => ⟨S2048x256, .f32⟩
  | 126 => ⟨S50000x1, .i32⟩
  | 127 => ⟨S2048x256, .f32⟩
  | _ => ⟨S50000x128, .f32⟩

abbrev hbmTy0_1 (i : Nat) : BufTy := match i % 128 with
  | 0 => ⟨S_, .f32⟩
  | 1 => ⟨S50000, .f32⟩
  | 2 => ⟨S_, .f32⟩
  | 3 => ⟨S2048, .f32⟩
  | 4 => ⟨S50000x1, .i32⟩
  | 5 => ⟨S2048, .f32⟩
  | 6 => ⟨S_, .f32⟩
  | 7 => ⟨S2048, .f32⟩
  | 8 => ⟨S2048, .f32⟩
  | 9 => ⟨S2048x1, .f32⟩
  | 10 => ⟨S2048x256, .f32⟩
  | 11 => ⟨S2048x256, .f32⟩
  | 12 => ⟨S2048x128, .f32⟩
  | 13 => ⟨S1x128, .f32⟩
  | 14 => ⟨S2048x128, .f32⟩
  | 15 => ⟨S2048x128, .f32⟩
  | 16 => ⟨S_, .f32⟩
  | 17 => ⟨S2048x128, .f32⟩
  | 18 => ⟨S2048x128, .f32⟩
  | 19 => ⟨S2048x32, .f32⟩
  | 20 => ⟨S1x32, .f32⟩
  | 21 => ⟨S2048x32, .f32⟩
  | 22 => ⟨S2048x32, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_cst_2 : Ref sig .tc := ⟨.hbm, 29, rfl⟩
abbrev main_v13 : Ref sig .tc := ⟨.hbm, 30, rfl⟩
abbrev main_v14 : Ref sig .tc := ⟨.hbm, 31, rfl⟩
abbrev main_cst_3 : Ref sig .tc := ⟨.hbm, 32, rfl⟩
abbrev main_call0_v0 : Ref sig .tc := ⟨.hbm, 33, rfl⟩
abbrev main_call0_v1 : Ref sig .tc := ⟨.hbm, 34, rfl⟩
abbrev main_v15 : Ref sig .tc := ⟨.hbm, 35, rfl⟩
abbrev main_c : Ref sig .tc := ⟨.hbm, 36, rfl⟩
abbrev main_v16 : Ref sig .tc := ⟨.hbm, 37, rfl⟩
abbrev main_v17 : Ref sig .tc := ⟨.hbm, 38, rfl⟩
abbrev main_c_4 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_c_5 : Ref sig .tc := ⟨.hbm, 45, rfl⟩
abbrev main_v23 : Ref sig .tc := ⟨.hbm, 46, rfl⟩
abbrev main_v24 : Ref sig .tc := ⟨.hbm, 47, rfl⟩
abbrev main_c_6 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_c_7 : Ref sig .tc := ⟨.hbm, 56, rfl⟩
abbrev main_v32 : Ref sig .tc := ⟨.hbm, 57, rfl⟩
abbrev main_v33 : Ref sig .tc := ⟨.hbm, 58, rfl⟩
abbrev main_c_8 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_cst_9 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_call1_cst : Ref sig .tc := ⟨.hbm, 75, rfl⟩
abbrev main_call1_v0 : Ref sig .tc := ⟨.hbm, 76, rfl⟩
abbrev main_v48 : Ref sig .tc := ⟨.hbm, 77, rfl⟩
abbrev main_v49 : Ref sig .tc := ⟨.hbm, 78, rfl⟩
abbrev main_c_10 : Ref sig .tc := ⟨.hbm, 79, rfl⟩
abbrev main_v50 : Ref sig .tc := ⟨.hbm, 80, rfl⟩
abbrev main_v51 : Ref sig .tc := ⟨.hbm, 81, rfl⟩
abbrev main_c_11 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_cst_12 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_call2_cst : Ref sig .tc := ⟨.hbm, 98, rfl⟩
abbrev main_call2_v0 : Ref sig .tc := ⟨.hbm, 99, rfl⟩
abbrev main_v66 : Ref sig .tc := ⟨.hbm, 100, rfl⟩
abbrev main_v67 : Ref sig .tc := ⟨.hbm, 101, rfl⟩
abbrev main_c_13 : Ref sig .tc := ⟨.hbm, 102, rfl⟩
abbrev main_v68 : Ref sig .tc := ⟨.hbm, 103, rfl⟩
abbrev main_v69 : Ref sig .tc := ⟨.hbm, 104, rfl⟩
abbrev main_c_14 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_cst_15 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_call3_cst : Ref sig .tc := ⟨.hbm, 121, rfl⟩
abbrev main_call3_v0 : Ref sig .tc := ⟨.hbm, 122, rfl⟩
abbrev main_v84 : Ref sig .tc := ⟨.hbm, 123, rfl⟩
abbrev main_cst_16 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_cst_17 : Ref sig .tc := ⟨.hbm, 128, rfl⟩
abbrev main_v88 : Ref sig .tc := ⟨.hbm, 129, rfl⟩
abbrev main_cst_18 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_cst_19 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_call4_cst : Ref sig .tc := ⟨.hbm, 144, rfl⟩
abbrev main_call4_v0 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩

abbrev nD : Nat := 1
abbrev τ : Topo := Topo.v7x

variable {F : FTy → Type} [FloatOps F]

class Facts₀ : Prop where
  slices_S2x300000_S1x300000_0_0 : S2x300000.Slices ![0, 0] S1x300000
  shapeCasts_S1x300000_S300000 : S1x300000.ShapeCasts S300000
  concatenates_S300000_S50000_S350000_d0 : Shape.Concatenates [S300000, S50000] S350000 0
  slices_S2x300000_S1x300000_1_0 : S2x300000.Slices ![1, 0] S1x300000
  bcast_S_S350000 : S_.BroadcastsInDim S350000 (![] : Fin 0 → Fin S350000.rank)
  bcast_S_S50000 : S_.BroadcastsInDim S50000 (![] : Fin 0 → Fin S50000.rank)
  bcast_S350000_S350000x1_0 : S350000.BroadcastsInDim S350000x1 (![0] : Fin 1 → Fin S350000x1.rank)
  bcast_S350000x1_S350000x256_0_1 : S350000x1.BroadcastsInDim S350000x256 (![0, 1] : Fin 2 → Fin S350000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S2048x256 : S_.BroadcastsInDim S2048x256 (![] : Fin 0 → Fin S2048x256.rank)
  bcast_S50000_S50000x1_0 : S50000.BroadcastsInDim S50000x1 (![0] : Fin 1 → Fin S50000x1.rank)
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x256_0_1 : S2048x1.BroadcastsInDim S2048x256 (![0, 1] : Fin 2 → Fin S2048x256.rank)
  bcast_S128_S1x128_1 : S128.BroadcastsInDim S1x128 (![1] : Fin 1 → Fin S1x128.rank)
  bcast_S1x128_S2048x128_0_1 : S1x128.BroadcastsInDim S2048x128 (![0, 1] : Fin 2 → Fin S2048x128.rank)
  bcast_S_S2048x128 : S_.BroadcastsInDim S2048x128 (![] : Fin 0 → Fin S2048x128.rank)
  bcast_S32_S1x32_1 : S32.BroadcastsInDim S1x32 (![1] : Fin 1 → Fin S1x32.rank)
  bcast_S1x32_S2048x32_0_1 : S1x32.BroadcastsInDim S2048x32 (![0, 1] : Fin 2 → Fin S2048x32.rank)
  scatter_S50000_S350000x1_S350000_n_0_0_1_wf : ScatterDims.WF S50000 S350000x1 S350000 [] [0] [0] 1
  gather_S50000_S350000x1_S350000_n_0_n_n_0_1_1_wf : GatherDims.WF S50000 S350000x1 S350000 [] [0] [] [0] [] 1 ![1]
  dot_S50000x128_S128x256_S50000x256_1_0_0_1_n_n_wf : DotDims.WF S50000x128 S128x256 S50000x256 [1] [0] [0] [1] [] []
  gather_S50000x256_S350000x1_S350000x256_1_0_n_n_0_1_1256_wf : GatherDims.WF S50000x256 S350000x1 S350000x256 [1] [0] [] [0] [] 1 ![1, 256]
  scatter_S50000x256_S350000x1_S350000x256_1_0_0_1_wf : ScatterDims.WF S50000x256 S350000x1 S350000x256 [1] [0] [0] 1
  dot_S50000x256_S256x256_S50000x256_1_0_0_1_n_n_wf : DotDims.WF S50000x256 S256x256 S50000x256 [1] [0] [0] [1] [] []
  scatter_S2048x256_S50000x1_S50000x256_1_0_0_1_wf : ScatterDims.WF S2048x256 S50000x1 S50000x256 [1] [0] [0] 1
  scatter_S2048_S50000x1_S50000_n_0_0_1_wf : ScatterDims.WF S2048 S50000x1 S50000 [] [0] [0] 1
  dot_S2048x256_S256x128_S2048x128_1_0_0_1_n_n_wf : DotDims.WF S2048x256 S256x128 S2048x128 [1] [0] [0] [1] [] []
  dot_S2048x128_S128x32_S2048x32_1_0_0_1_n_n_wf : DotDims.WF S2048x128 S128x32 S2048x32 [1] [0] [0] [1] [] []

variable [Facts₀]

def scatter_S50000_S350000x1_S350000_n_0_0_1 : ScatterDims S50000 S350000x1 S350000 where
  updateWindowDims := []
  insertedWindowDims := [0]
  scatterDimsToOperandDims := [0]
  indexVectorDim := 1
  wf := scatter_S50000_S350000x1_S350000_n_0_0_1_wf
def gather_S50000_S350000x1_S350000_n_0_n_n_0_1_1 : GatherDims S50000 S350000x1 S350000 where
  offsetDims := []
  collapsedSliceDims := [0]
  operandBatchingDims := []
  startIndicesBatchingDims := []
  startIndexMap := [0]
  indexVectorDim := 1
  sliceSizes := ![1]
  wf := gather_S50000_S350000x1_S350000_n_0_n_n_0_1_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S350000x1_S350000x256_1_0_n_n_0_1_1256 : GatherDims S50000x256 S350000x1 S350000x256 where
  offsetDims := [1]
  collapsedSliceDims := [0]
  operandBatchingDims := []
  startIndicesBatchingDims := []
  startIndexMap := [0]
  indexVectorDim := 1
  sliceSizes := ![1, 256]
  wf := gather_S50000x256_S350000x1_S350000x256_1_0_n_n_0_1_1256_wf
def scatter_S50000x256_S350000x1_S350000x256_1_0_0_1 : ScatterDims S50000x256 S350000x1 S350000x256 where
  updateWindowDims := [1]
  insertedWindowDims := [0]
  scatterDimsToOperandDims := [0]
  indexVectorDim := 1
  wf := scatter_S50000x256_S350000x1_S350000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def scatter_S2048x256_S50000x1_S50000x256_1_0_0_1 : ScatterDims S2048x256 S50000x1 S50000x256 where
  updateWindowDims := [1]
  insertedWindowDims := [0]
  scatterDimsToOperandDims := [0]
  indexVectorDim := 1
  wf := scatter_S2048x256_S50000x1_S50000x256_1_0_0_1_wf
def scatter_S2048_S50000x1_S50000_n_0_0_1 : ScatterDims S2048 S50000x1 S50000 where
  updateWindowDims := []
  insertedWindowDims := [0]
  scatterDimsToOperandDims := [0]
  indexVectorDim := 1
  wf := scatter_S2048_S50000x1_S50000_n_0_0_1_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf
def dot_S2048x128_S128x32_S2048x32_1_0_0_1_n_n : DotDims S2048x128 S128x32 S2048x32 where
  lhsContracting := [1]
  rhsContracting := [0]
  lhsNonContracting := [0]
  rhsNonContracting := [1]
  lhsBatch := []
  rhsBatch := []
  wf := dot_S2048x128_S128x32_S2048x32_1_0_0_1_n_n_wf

class Facts : Prop extends Facts₀ where

variable [Facts]
-- ==== Proof.KernelRun.lean ====
/-
  The idealized kernel's run, with every buffer it leaves named.

  @main is twelve segments: five kernel regions (four grids of 25 row blocks and one single block) among seven
  stretches of host operations. Each segment's effect on the TensorCore's unscoped buffers is a pure function of
  the buffers before it: a host stretch applies its operations; a region replaces each of its output arrays by what
  its write-backs leave and keeps every other buffer. So the buffers after the last segment are one fold, `W12`, of
  the launch memory, and every weakly fair execution terminates with each unscoped buffer at that fold
  (`run_fold`). Read at the result buffer the fold is the kernel's result; read at an argument it walks back to the
  launch contents (`run_result`).
-/
import proofs.«172521_j83751862272702_1_alg».proof.Proof.Gen.KernelIdeal.Frame

noncomputable section

namespace Cert.KernelIdeal.ResultRun

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What a final memory holds on core `c`: every unscoped buffer at the twelve segments' fold of the launch memory. -/
def AtFold (c : Dev nD) (s : MemSt nD τ sig (Elt F)) : Prop :=
  ∀ b ∈ Pipeline.ucRefs τ sig, s.mem (((c : Thread nD τ)).1, b) = W12 m ρ c b

-- the launch theorem's implicit arguments are found by unifying its conclusion with this statement, which unfolds
-- plain definitions inside a metavariable's type
set_option backward.isDefEq.respectTransparency.types false in
/-- Every weakly fair execution of @main terminates, nothing faulting, and on every core leaves each unscoped buffer at
    the fold. The launch: no core owes anything and no ghost resource is dealt; the first thread state is the launch
    memory's unscoped buffers beside the generator register and an empty debt; the last is the fold's buffers, read
    against the final state buffer by buffer. -/
theorem run_fold : θ_run defs (onTc (τ := τ) (main (F := F))) ⟨m, fun _ => 0, ρ⟩ (fun r => ∀ c : Dev nD, AtFold m ρ c r.2) :=
  Pipeline.θ_run_regions_kit (pcfgs (F := F)) adm (pdats m ρ) () cellOf_inj emb₁ defs₀ 𝒱₀ L lv m ρ main (segs m ρ)
    (hmain := fun c Q => by rw [main_run m ρ c])
    (hnd := by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu
      imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      · iapply (show (BI.emp : sProp 𝕄) ⊢ bigSep Finset.univ (fun _ : Dev nD => (BI.emp : sProp 𝕄))
            from by rw [BI.bigSep_emp_const])
        iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl⟩)
    (hinit := by
      refine Pipeline.initEach L lv fun c => ?_
      rw [Pipeline.unscopedBufs_held c (W0 m ρ c)]
      iintro ⟨⟨Hbufs, -, Howes, -, Hprng, -⟩, -⟩
      imodintro
      isplitl [Hbufs]
      · iexact Hbufs
      isplitl [Hprng]
      · iexists _; iexact Hprng
      · iexists ∅; iexact Howes)
    (QY := AtFold m ρ)
    (hfin := fun c s' => by
      iintro ⟨⟨Hbufs, -⟩, HSI⟩
      unfold StableHlo.held AtFold
      imodintro
      iapply (pointsTo_read_all (Pipeline.ucRefs τ sig) (fun b => (((c : Thread nD τ)).1, b)) (W12 m ρ c) s')
      isplitl [Hbufs] <;> iassumption)
    (hQ := fun _ h => h)

/-- The run read at the result buffer and at the thirteen arguments: the result is the fold at its buffer; no host
    operation and no region writes an argument, so each ends as launched. -/
theorem run_result : θ_run defs (onTc (τ := τ) (main (F := F))) ⟨m, fun _ => 0, ρ⟩ (fun r => ∀ c : Dev nD,
      r.2.mem ((c.tc : Thread nD τ).loc main_v91) = W12 m ρ c (Proc.devRef .tc main_v91)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
      ⟨h c _ (mem_uc main_v91 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c),
       (h c _ (mem_uc main_arg12 (by decide))).trans (W12_main_arg12 m ρ c)⟩)
    (run_fold m ρ)

end Cert.KernelIdeal.ResultRun

end
-- ==== Proof.HostChain.lean ====
/-
  The host computations the kernel's program and the reference share, each named once as a function of what it reads.

  Both programs compute, on the host and with the same operations: the edge list extended by one self loop per node
  (`sources`, `targets`: row 0 and row 1 of the edge index, each followed by 0 … 49999); the symmetric normalisation of
  every extended edge, `norm e = d (source e) · d (target e)`, where `d v = deg v ^ (-1/2)` if `deg v > 0` and 0 otherwise
  and `deg v` counts the extended edges into `v`; the aggregation of node features along the extended edges,
  `aggregate h`: for each node the sum over the edges into it of `h (source e) · norm e` (a gather of rows, a product with
  the norm broadcast over the columns, a scatter-add into zeros); and the mean pool of node features over graphs: the
  scatter-add of the rows by graph id, divided by the graph's node count clamped below at one. An index read through a
  gather is first wrapped as jnp does: 50000 is added to a negative one.
-/
import proofs.«172521_j83751862272702_1_alg».proof.Proof.Gen.KernelIdeal

noncomputable section

namespace Cert.KernelIdeal.HostChain

open Cert.KernelIdeal Idealize.ShloMosaic Idealize.ShloMosaic.TcCoe
open Cert.KernelIdeal.Facts₀ Cert.KernelIdeal.Facts

variable {F : FTy → Type} [FloatOps F]

/-- The source of every extended edge: row 0 of the edge index, then 0 … 49999. -/
def sources (x1 : (⟨S2x300000, .i32⟩ : BufTy).Contents (Elt F)) : (⟨S350000, .i32⟩ : BufTy).Contents (Elt F) :=
  concatenate S350000 0 [⟨S300000, (shapeCast _ (extractStridedSlice S1x300000 ![0, 0] x1 slices_S2x300000_S1x300000_0_0) shapeCasts_S1x300000_S300000)⟩,
    ⟨S50000, (iotaInDim S50000 32 0)⟩] concatenates_S300000_S50000_S350000_d0

/-- The target of every extended edge: row 1 of the edge index, then 0 … 49999. -/
def targets (x1 : (⟨S2x300000, .i32⟩ : BufTy).Contents (Elt F)) : (⟨S350000, .i32⟩ : BufTy).Contents (Elt F) :=
  concatenate S350000 0 [⟨S300000, (shapeCast _ (extractStridedSlice S1x300000 ![1, 0] x1 slices_S2x300000_S1x300000_1_0) shapeCasts_S1x300000_S300000)⟩,
    ⟨S50000, (iotaInDim S50000 32 0)⟩] concatenates_S300000_S50000_S350000_d0

/-- jnp's wrap of a node index: 50000 added to a negative one. -/
def wrap (s : (⟨S350000, .i32⟩ : BufTy).Contents (Elt F)) : (⟨S350000, .i32⟩ : BufTy).Contents (Elt F) :=
  select (cmpi .slt s (broadcastInDim S350000 ![] bcast_S_S350000 (constantI S_ 32 0#32)))
    (addi s (broadcastInDim S350000 ![] bcast_S_S350000 (constantI S_ 32 50000#32))) s

/-- The number of extended edges into each node. -/
def degree (x1 : (⟨S2x300000, .i32⟩ : BufTy).Contents (Elt F)) : (⟨S50000, .f32⟩ : BufTy).Contents (Elt F) :=
  Host.scatterAdd scatter_S50000_S350000x1_S350000_n_0_0_1 (broadcastInDim S50000 ![] bcast_S_S50000 (constant S_ .f32 0x00000000#32))
    (broadcastInDim S350000x1 ![0] bcast_S350000_S350000x1_0 (targets x1))
    (broadcastInDim S350000 ![] bcast_S_S350000 (constant S_ .f32 0x3F800000#32))

/-- Whether a node's degree is positive. -/
def degreePositive (x1 : (⟨S2x300000, .i32⟩ : BufTy).Contents (Elt F)) : (⟨S50000, .i1⟩ : BufTy).Contents (Elt F) :=
  cmpf (F := F) .ogt (degree x1) (broadcastInDim S50000 ![] bcast_S_S50000 (constant S_ .f32 0x00000000#32))

/-- The degree to the power -1/2. -/
def degreePow (x1 : (⟨S2x300000, .i32⟩ : BufTy).Contents (Elt F)) : (⟨S50000, .f32⟩ : BufTy).Contents (Elt F) :=
  Host.powf (degree x1) (broadcastInDim S50000 ![] bcast_S_S50000 (constant S_ .f32 0xBF000000#32))

/-- The product of the two endpoints' factors, per extended edge: from the source and target of every edge and the factor
    per node. -/
def normAt (s d : (⟨S350000, .i32⟩ : BufTy).Contents (Elt F)) (f : (⟨S50000, .f32⟩ : BufTy).Contents (Elt F)) :
    (⟨S350000, .f32⟩ : BufTy).Contents (Elt F) :=
  mulf (Host.gather gather_S50000_S350000x1_S350000_n_0_n_n_0_1_1 f (broadcastInDim S350000x1 ![0] bcast_S350000_S350000x1_0 (wrap s)))
    (Host.gather gather_S50000_S350000x1_S350000_n_0_n_n_0_1_1 f (broadcastInDim S350000x1 ![0] bcast_S350000_S350000x1_0 (wrap d)))

/-- The factor of a node: its degree to the power -1/2 where the degree is positive, 0 elsewhere. -/
def nodeFactor (x1 : (⟨S2x300000, .i32⟩ : BufTy).Contents (Elt F)) : (⟨S50000, .f32⟩ : BufTy).Contents (Elt F) :=
  select (degreePositive x1) (degreePow x1) (broadcastInDim S50000 ![] bcast_S_S50000 (constant S_ .f32 0x00000000#32))

/-- The symmetric normalisation of every extended edge. -/
def norm (x1 : (⟨S2x300000, .i32⟩ : BufTy).Contents (Elt F)) : (⟨S350000, .f32⟩ : BufTy).Contents (Elt F) :=
  normAt (sources x1) (targets x1) (nodeFactor x1)

/-- Node features aggregated along edges: from the source `s`, the target `d` and the weight `n` of every edge, for each
    node the sum, over the edges into it, of the source's row times the edge's weight. -/
def aggregateAt (s d : (⟨S350000, .i32⟩ : BufTy).Contents (Elt F)) (n : (⟨S350000, .f32⟩ : BufTy).Contents (Elt F))
    (h : (⟨S50000x256, .f32⟩ : BufTy).Contents (Elt F)) : (⟨S50000x256, .f32⟩ : BufTy).Contents (Elt F) :=
  Host.scatterAdd scatter_S50000x256_S350000x1_S350000x256_1_0_0_1 (broadcastInDim S50000x256 ![] bcast_S_S50000x256 (constant S_ .f32 0x00000000#32))
    (broadcastInDim S350000x1 ![0] bcast_S350000_S350000x1_0 d)
    (mulf (Host.gather gather_S50000x256_S350000x1_S350000x256_1_0_n_n_0_1_1256 h (broadcastInDim S350000x1 ![0] bcast_S350000_S350000x1_0 (wrap s)))
      (broadcastInDim S350000x256 ![0, 1] bcast_S350000x1_S350000x256_0_1 (broadcastInDim S350000x1 ![0] bcast_S350000_S350000x1_0 n)))

/-- Node features aggregated along the extended edges with the symmetric normalisation. -/
def aggregate (h : (⟨S50000x256, .f32⟩ : BufTy).Contents (Elt F)) (x1 : (⟨S2x300000, .i32⟩ : BufTy).Contents (Elt F)) :
    (⟨S50000x256, .f32⟩ : BufTy).Contents (Elt F) :=
  aggregateAt (sources x1) (targets x1) (norm x1) h

/-- The mean of the node features over each graph: the rows summed by graph id, divided by the graph's node count clamped
    below at one. -/
def meanPool (h : (⟨S50000x256, .f32⟩ : BufTy).Contents (Elt F)) (x2 : (⟨S50000, .i32⟩ : BufTy).Contents (Elt F)) :
    (⟨S2048x256, .f32⟩ : BufTy).Contents (Elt F) :=
  Host.divf (Host.scatterAdd scatter_S2048x256_S50000x1_S50000x256_1_0_0_1 (broadcastInDim S2048x256 ![] bcast_S_S2048x256 (constant S_ .f32 0x00000000#32))
      (broadcastInDim S50000x1 ![0] bcast_S50000_S50000x1_0 x2) h)
    (broadcastInDim S2048x256 ![0, 1] bcast_S2048x1_S2048x256_0_1 (broadcastInDim S2048x1 ![0] bcast_S2048_S2048x1_0
      (maximumf (Host.scatterAdd scatter_S2048_S50000x1_S50000_n_0_0_1 (broadcastInDim S2048 ![] bcast_S_S2048 (constant S_ .f32 0x00000000#32))
          (broadcastInDim S50000x1 ![0] bcast_S50000_S50000x1_0 x2) (broadcastInDim S50000 ![] bcast_S_S50000 (constant S_ .f32 0x3F800000#32)))
        (broadcastInDim S2048 ![] bcast_S_S2048 (constant S_ .f32 0x3F800000#32)))))

/-- A 256-entry bias as one row. -/
def row256 (b : (⟨S256, .f32⟩ : BufTy).Contents (Elt F)) : (⟨S1x256, .f32⟩ : BufTy).Contents (Elt F) :=
  shapeCast S1x256 b shapeCasts_S256_S1x256
/-- A 128-entry bias as one row. -/
def row128 (b : (⟨S128, .f32⟩ : BufTy).Contents (Elt F)) : (⟨S1x128, .f32⟩ : BufTy).Contents (Elt F) :=
  shapeCast S1x128 b shapeCasts_S128_S1x128
/-- A 32-entry bias as one row. -/
def row32 (b : (⟨S32, .f32⟩ : BufTy).Contents (Elt F)) : (⟨S1x32, .f32⟩ : BufTy).Contents (Elt F) :=
  shapeCast S1x32 b shapeCasts_S32_S1x32

end Cert.KernelIdeal.HostChain

end
-- ==== Proof.StretchesA.lean ====
/-
  The host operations before the first region, one stretch at a time, over an arbitrary valuation `Wp` of the buffers
  before the stretch: what each buffer a later segment reads holds after it.

  The first stretch computes the extended edges' sources and targets from the edge index, and the degree's two
  readings (whether it is positive; its power -1/2); the second is the outlined `where`, which selects between the
  power and zero; the third wraps the indices, gathers the two endpoints' factors and multiplies them: the norm of
  every extended edge. None of them writes an argument, and the later two keep the sources and the targets.
-/
import proofs.«172521_j83751862272702_1_alg».proof.Proof.Gen.KernelIdeal.Launch
import proofs.«172521_j83751862272702_1_alg».proof.Proof.HostChain

set_option maxRecDepth 16384
set_option maxHeartbeats 1000000

noncomputable section

namespace Cert.KernelIdeal.StretchesA

open Cert.KernelIdeal Cert.KernelIdeal.Gen
open Idealize.ShloMosaic Idealize.ShloMosaic.TcCoe Idealize.SL.Sem Idealize.ShloMosaic.StableHlo
open Cert.KernelIdeal.HostChain

variable {F : FTy → Type} [FloatOps F]
variable (Wp : Valuation τ sig (Elt F))

/-! ## The first stretch -/

theorem a_v3 : StableHlo.after hostOps0 Wp (Proc.devRef .tc main_v3) = sources (Wp (Proc.devRef .tc main_arg1)) := by
  after_results_simp
  rfl
theorem a_v6 : StableHlo.after hostOps0 Wp (Proc.devRef .tc main_v6) = targets (Wp (Proc.devRef .tc main_arg1)) := by
  after_results_simp
  rfl
theorem a_v12 : StableHlo.after hostOps0 Wp (Proc.devRef .tc main_v12) = degreePositive (Wp (Proc.devRef .tc main_arg1)) := by
  after_results_simp
  rfl
theorem a_v14 : StableHlo.after hostOps0 Wp (Proc.devRef .tc main_v14) = degreePow (Wp (Proc.devRef .tc main_arg1)) := by
  after_results_simp
  rfl
theorem a_cst_3 : StableHlo.after hostOps0 Wp (Proc.devRef .tc main_cst_3) = constant S_ .f32 0x00000000#32 := by
  after_results_simp
theorem a_arg0 : StableHlo.after hostOps0 Wp (Proc.devRef .tc main_arg0) = Wp (Proc.devRef .tc main_arg0) := by
  after_results_simp
theorem a_arg1 : StableHlo.after hostOps0 Wp (Proc.devRef .tc main_arg1) = Wp (Proc.devRef .tc main_arg1) := by
  after_results_simp
theorem a_arg2 : StableHlo.after hostOps0 Wp (Proc.devRef .tc main_arg2) = Wp (Proc.devRef .tc main_arg2) := by
  after_results_simp
theorem a_arg3 : StableHlo.after hostOps0 Wp (Proc.devRef .tc main_arg3) = Wp (Proc.devRef .tc main_arg3) := by
  after_results_simp
theorem a_arg4 : StableHlo.after hostOps0 Wp (Proc.devRef .tc main_arg4) = Wp (Proc.devRef .tc main_arg4) := by
  after_results_simp
theorem a_arg5 : StableHlo.after hostOps0 Wp (Proc.devRef .tc main_arg5) = Wp (Proc.devRef .tc main_arg5) := by
  after_results_simp
theorem a_arg6 : StableHlo.after hostOps0 Wp (Proc.devRef .tc main_arg6) = Wp (Proc.devRef .tc main_arg6) := by
  after_results_simp
theorem a_arg7 : StableHlo.after hostOps0 Wp (Proc.devRef .tc main_arg7) = Wp (Proc.devRef .tc main_arg7) := by
  after_results_simp
theorem a_arg8 : StableHlo.after hostOps0 Wp (Proc.devRef .tc main_arg8) = Wp (Proc.devRef .tc main_arg8) := by
  after_results_simp
theorem a_arg9 : StableHlo.after hostOps0 Wp (Proc.devRef .tc main_arg9) = Wp (Proc.devRef .tc main_arg9) := by
  after_results_simp
theorem a_arg10 : StableHlo.after hostOps0 Wp (Proc.devRef .tc main_arg10) = Wp (Proc.devRef .tc main_arg10) := by
  after_results_simp
theorem a_arg11 : StableHlo.after hostOps0 Wp (Proc.devRef .tc main_arg11) = Wp (Proc.devRef .tc main_arg11) := by
  after_results_simp
theorem a_arg12 : StableHlo.after hostOps0 Wp (Proc.devRef .tc main_arg12) = Wp (Proc.devRef .tc main_arg12) := by
  after_results_simp

/-! ## The second stretch: the outlined `where` -/

theorem b_v15 : StableHlo.after hostOps0_1 Wp (Proc.devRef .tc main_v15)
    = select (Wp (Proc.devRef .tc main_v12)) (Wp (Proc.devRef .tc main_v14)) (broadcastInDim S50000 ![] bcast_S_S50000 (Wp (Proc.devRef .tc main_cst_3))) := by
  after_results_simp
  rfl
theorem b_v3 : StableHlo.after hostOps0_1 Wp (Proc.devRef .tc main_v3) = Wp (Proc.devRef .tc main_v3) := by
  after_results_simp
theorem b_v6 : StableHlo.after hostOps0_1 Wp (Proc.devRef .tc main_v6) = Wp (Proc.devRef .tc main_v6) := by
  after_results_simp
theorem b_arg0 : StableHlo.after hostOps0_1 Wp (Proc.devRef .tc main_arg0) = Wp (Proc.devRef .tc main_arg0) := by
  after_results_simp
theorem b_arg1 : StableHlo.after hostOps0_1 Wp (Proc.devRef .tc main_arg1) = Wp (Proc.devRef .tc main_arg1) := by
  after_results_simp
theorem b_arg2 : StableHlo.after hostOps0_1 Wp (Proc.devRef .tc main_arg2) = Wp (Proc.devRef .tc main_arg2) := by
  after_results_simp
theorem b_arg3 : StableHlo.after hostOps0_1 Wp (Proc.devRef .tc main_arg3) = Wp (Proc.devRef .tc main_arg3) := by
  after_results_simp
theorem b_arg4 : StableHlo.after hostOps0_1 Wp (Proc.devRef .tc main_arg4) = Wp (Proc.devRef .tc main_arg4) := by
  after_results_simp
theorem b_arg5 : StableHlo.after hostOps0_1 Wp (Proc.devRef .tc main_arg5) = Wp (Proc.devRef .tc main_arg5) := by
  after_results_simp
theorem b_arg6 : StableHlo.after hostOps0_1 Wp (Proc.devRef .tc main_arg6) = Wp (Proc.devRef .tc main_arg6) := by
  after_results_simp
theorem b_arg7 : StableHlo.after hostOps0_1 Wp (Proc.devRef .tc main_arg7) = Wp (Proc.devRef .tc main_arg7) := by
  after_results_simp
theorem b_arg8 : StableHlo.after hostOps0_1 Wp (Proc.devRef .tc main_arg8) = Wp (Proc.devRef .tc main_arg8) := by
  after_results_simp
theorem b_arg9 : StableHlo.after hostOps0_1 Wp (Proc.devRef .tc main_arg9) = Wp (Proc.devRef .tc main_arg9) := by
  after_results_simp
theorem b_arg10 : StableHlo.after hostOps0_1 Wp (Proc.devRef .tc main_arg10) = Wp (Proc.devRef .tc main_arg10) := by
  after_results_simp
theorem b_arg11 : StableHlo.after hostOps0_1 Wp (Proc.devRef .tc main_arg11) = Wp (Proc.devRef .tc main_arg11) := by
  after_results_simp
theorem b_arg12 : StableHlo.after hostOps0_1 Wp (Proc.devRef .tc main_arg12) = Wp (Proc.devRef .tc main_arg12) := by
  after_results_simp

/-! ## The third stretch -/

theorem c_v30 : StableHlo.after hostOps0_2 Wp (Proc.devRef .tc main_v30)
    = normAt (Wp (Proc.devRef .tc main_v3)) (Wp (Proc.devRef .tc main_v6)) (Wp (Proc.devRef .tc main_v15)) := by
  after_results_simp
  rfl
theorem c_v3 : StableHlo.after hostOps0_2 Wp (Proc.devRef .tc main_v3) = Wp (Proc.devRef .tc main_v3) := by
  after_results_simp
theorem c_v6 : StableHlo.after hostOps0_2 Wp (Proc.devRef .tc main_v6) = Wp (Proc.devRef .tc main_v6) := by
  after_results_simp
theorem c_arg0 : StableHlo.after hostOps0_2 Wp (Proc.devRef .tc main_arg0) = Wp (Proc.devRef .tc main_arg0) := by
  after_results_simp
theorem c_arg1 : StableHlo.after hostOps0_2 Wp (Proc.devRef .tc main_arg1) = Wp (Proc.devRef .tc main_arg1) := by
  after_results_simp
theorem c_arg2 : StableHlo.after hostOps0_2 Wp (Proc.devRef .tc main_arg2) = Wp (Proc.devRef .tc main_arg2) := by
  after_results_simp
theorem c_arg3 : StableHlo.after hostOps0_2 Wp (Proc.devRef .tc main_arg3) = Wp (Proc.devRef .tc main_arg3) := by
  after_results_simp
theorem c_arg4 : StableHlo.after hostOps0_2 Wp (Proc.devRef .tc main_arg4) = Wp (Proc.devRef .tc main_arg4) := by
  after_results_simp
theorem c_arg5 : StableHlo.after hostOps0_2 Wp (Proc.devRef .tc main_arg5) = Wp (Proc.devRef .tc main_arg5) := by
  after_results_simp
theorem c_arg6 : StableHlo.after hostOps0_2 Wp (Proc.devRef .tc main_arg6) = Wp (Proc.devRef .tc main_arg6) := by
  after_results_simp
theorem c_arg7 : StableHlo.after hostOps0_2 Wp (Proc.devRef .tc main_arg7) = Wp (Proc.devRef .tc main_arg7) := by
  after_results_simp
theorem c_arg8 : StableHlo.after hostOps0_2 Wp (Proc.devRef .tc main_arg8) = Wp (Proc.devRef .tc main_arg8) := by
  after_results_simp
theorem c_arg9 : StableHlo.after hostOps0_2 Wp (Proc.devRef .tc main_arg9) = Wp (Proc.devRef .tc main_arg9) := by
  after_results_simp
theorem c_arg10 : StableHlo.after hostOps0_2 Wp (Proc.devRef .tc main_arg10) = Wp (Proc.devRef .tc main_arg10) := by
  after_results_simp
theorem c_arg11 : StableHlo.after hostOps0_2 Wp (Proc.devRef .tc main_arg11) = Wp (Proc.devRef .tc main_arg11) := by
  after_results_simp
theorem c_arg12 : StableHlo.after hostOps0_2 Wp (Proc.devRef .tc main_arg12) = Wp (Proc.devRef .tc main_arg12) := by
  after_results_simp

end Cert.KernelIdeal.StretchesA

end
-- ==== Proof.StretchesB.lean ====
/-
  The host operations between the regions, one stretch at a time, over an arbitrary valuation `Wp` of the buffers before
  the stretch: what each buffer a later segment reads holds after it.

  After each of the first three regions the stretch aggregates the region's result along the extended edges (from the
  sources, the targets and the norm the earlier stretches left) and reshapes the next layer's bias into one row; after
  the fourth it takes the mean of the node features over each graph and reshapes the head's two biases. None of them
  writes an argument or the sources, the targets or the norm.
-/
import proofs.«172521_j83751862272702_1_alg».proof.Proof.Gen.KernelIdeal.Launch
import proofs.«172521_j83751862272702_1_alg».proof.Proof.HostChain

set_option maxRecDepth 16384
set_option maxHeartbeats 1000000

noncomputable section

namespace Cert.KernelIdeal.StretchesB

open Cert.KernelIdeal Cert.KernelIdeal.Gen
open Idealize.ShloMosaic Idealize.ShloMosaic.TcCoe Idealize.SL.Sem Idealize.ShloMosaic.StableHlo
open Cert.KernelIdeal.HostChain

variable {F : FTy → Type} [FloatOps F]
variable (Wp : Valuation τ sig (Elt F))

/-! ## After region 0 -/

theorem s1_v44 : StableHlo.after hostOps1 Wp (Proc.devRef .tc main_v44)
    = aggregateAt (Wp (Proc.devRef .tc main_v3)) (Wp (Proc.devRef .tc main_v6)) (Wp (Proc.devRef .tc main_v30)) (Wp (Proc.devRef .tc main_v31)) := by
  after_results_simp
  rfl
theorem s1_v45 : StableHlo.after hostOps1 Wp (Proc.devRef .tc main_v45) = row256 (Wp (Proc.devRef .tc main_arg4)) := by
  after_results_simp
  rfl
theorem s1_v3 : StableHlo.after hostOps1 Wp (Proc.devRef .tc main_v3) = Wp (Proc.devRef .tc main_v3) := by
  after_results_simp
theorem s1_v6 : StableHlo.after hostOps1 Wp (Proc.devRef .tc main_v6) = Wp (Proc.devRef .tc main_v6) := by
  after_results_simp
theorem s1_v30 : StableHlo.after hostOps1 Wp (Proc.devRef .tc main_v30) = Wp (Proc.devRef .tc main_v30) := by
  after_results_simp
theorem s1_arg2 : StableHlo.after hostOps1 Wp (Proc.devRef .tc main_arg2) = Wp (Proc.devRef .tc main_arg2) := by
  after_results_simp
theorem s1_arg5 : StableHlo.after hostOps1 Wp (Proc.devRef .tc main_arg5) = Wp (Proc.devRef .tc main_arg5) := by
  after_results_simp
theorem s1_arg6 : StableHlo.after hostOps1 Wp (Proc.devRef .tc main_arg6) = Wp (Proc.devRef .tc main_arg6) := by
  after_results_simp
theorem s1_arg7 : StableHlo.after hostOps1 Wp (Proc.devRef .tc main_arg7) = Wp (Proc.devRef .tc main_arg7) := by
  after_results_simp
theorem s1_arg8 : StableHlo.after hostOps1 Wp (Proc.devRef .tc main_arg8) = Wp (Proc.devRef .tc main_arg8) := by
  after_results_simp
theorem s1_arg9 : StableHlo.after hostOps1 Wp (Proc.devRef .tc main_arg9) = Wp (Proc.devRef .tc main_arg9) := by
  after_results_simp
theorem s1_arg10 : StableHlo.after hostOps1 Wp (Proc.devRef .tc main_arg10) = Wp (Proc.devRef .tc main_arg10) := by
  after_results_simp
theorem s1_arg11 : StableHlo.after hostOps1 Wp (Proc.devRef .tc main_arg11) = Wp (Proc.devRef .tc main_arg11) := by
  after_results_simp
theorem s1_arg12 : StableHlo.after hostOps1 Wp (Proc.devRef .tc main_arg12) = Wp (Proc.devRef .tc main_arg12) := by
  after_results_simp

/-! ## After region 1 -/

theorem s2_v59 : StableHlo.after hostOps2 Wp (Proc.devRef .tc main_v59)
    = aggregateAt (Wp (Proc.devRef .tc main_v3)) (Wp (Proc.devRef .tc main_v6)) (Wp (Proc.devRef .tc main_v30)) (Wp (Proc.devRef .tc main_v46)) := by
  after_results_simp
  rfl
theorem s2_v60 : StableHlo.after hostOps2 Wp (Proc.devRef .tc main_v60) = row256 (Wp (Proc.devRef .tc main_arg6)) := by
  after_results_simp
  rfl
theorem s2_v3 : StableHlo.after hostOps2 Wp (Proc.devRef .tc main_v3) = Wp (Proc.devRef .tc main_v3) := by
  after_results_simp
theorem s2_v6 : StableHlo.after hostOps2 Wp (Proc.devRef .tc main_v6) = Wp (Proc.devRef .tc main_v6) := by
  after_results_simp
theorem s2_v30 : StableHlo.after hostOps2 Wp (Proc.devRef .tc main_v30) = Wp (Proc.devRef .tc main_v30) := by
  after_results_simp
theorem s2_arg2 : StableHlo.after hostOps2 Wp (Proc.devRef .tc main_arg2) = Wp (Proc.devRef .tc main_arg2) := by
  after_results_simp
theorem s2_arg7 : StableHlo.after hostOps2 Wp (Proc.devRef .tc main_arg7) = Wp (Proc.devRef .tc main_arg7) := by
  after_results_simp
theorem s2_arg8 : StableHlo.after hostOps2 Wp (Proc.devRef .tc main_arg8) = Wp (Proc.devRef .tc main_arg8) := by
  after_results_simp
theorem s2_arg9 : StableHlo.after hostOps2 Wp (Proc.devRef .tc main_arg9) = Wp (Proc.devRef .tc main_arg9) := by
  after_results_simp
theorem s2_arg10 : StableHlo.after hostOps2 Wp (Proc.devRef .tc main_arg10) = Wp (Proc.devRef .tc main_arg10) := by
  after_results_simp
theorem s2_arg11 : StableHlo.after hostOps2 Wp (Proc.devRef .tc main_arg11) = Wp (Proc.devRef .tc main_arg11) := by
  after_results_simp
theorem s2_arg12 : StableHlo.after hostOps2 Wp (Proc.devRef .tc main_arg12) = Wp (Proc.devRef .tc main_arg12) := by
  after_results_simp

/-! ## After region 2 -/

theorem s3_v74 : StableHlo.after hostOps3 Wp (Proc.devRef .tc main_v74)
    = aggregateAt (Wp (Proc.devRef .tc main_v3)) (Wp (Proc.devRef .tc main_v6)) (Wp (Proc.devRef .tc main_v30)) (Wp (Proc.devRef .tc main_v61)) := by
  after_results_simp
  rfl
theorem s3_v75 : StableHlo.after hostOps3 Wp (Proc.devRef .tc main_v75) = row256 (Wp (Proc.devRef .tc main_arg8)) := by
  after_results_simp
  rfl
theorem s3_arg2 : StableHlo.after hostOps3 Wp (Proc.devRef .tc main_arg2) = Wp (Proc.devRef .tc main_arg2) := by
  after_results_simp
theorem s3_arg9 : StableHlo.after hostOps3 Wp (Proc.devRef .tc main_arg9) = Wp (Proc.devRef .tc main_arg9) := by
  after_results_simp
theorem s3_arg10 : StableHlo.after hostOps3 Wp (Proc.devRef .tc main_arg10) = Wp (Proc.devRef .tc main_arg10) := by
  after_results_simp
theorem s3_arg11 : StableHlo.after hostOps3 Wp (Proc.devRef .tc main_arg11) = Wp (Proc.devRef .tc main_arg11) := by
  after_results_simp
theorem s3_arg12 : StableHlo.after hostOps3 Wp (Proc.devRef .tc main_arg12) = Wp (Proc.devRef .tc main_arg12) := by
  after_results_simp

/-! ## After region 3 -/

theorem s4_v88 : StableHlo.after hostOps4 Wp (Proc.devRef .tc main_v88) = meanPool (Wp (Proc.devRef .tc main_v76)) (Wp (Proc.devRef .tc main_arg2)) := by
  after_results_simp
  rfl
theorem s4_v89 : StableHlo.after hostOps4 Wp (Proc.devRef .tc main_v89) = row128 (Wp (Proc.devRef .tc main_arg10)) := by
  after_results_simp
  rfl
theorem s4_v90 : StableHlo.after hostOps4 Wp (Proc.devRef .tc main_v90) = row32 (Wp (Proc.devRef .tc main_arg12)) := by
  after_results_simp
  rfl
theorem s4_arg9 : StableHlo.after hostOps4 Wp (Proc.devRef .tc main_arg9) = Wp (Proc.devRef .tc main_arg9) := by
  after_results_simp
theorem s4_arg11 : StableHlo.after hostOps4 Wp (Proc.devRef .tc main_arg11) = Wp (Proc.devRef .tc main_arg11) := by
  after_results_simp

end Cert.KernelIdeal.StretchesB

end
-- ==== Proof.Region0.lean ====
/-
  Region 0: the first feature transform, `x · W1`, tiled over rows.

  The grid has 25 points; point `t` reads rows `2000 t … 2000 t + 1999` of the left operand (all 128 columns), the whole
  128 × 256 right operand, and writes the same rows of the 50000 × 256 result. In the body the two operands are
  narrowed to bf16 — the identity on extended reals — and multiplied into a zero accumulator, so entry `(r, q)` of
  the block is `∑ k, x (r, k) · w (k, q)`: zero plus a sum is the sum on the extended reals. Row `r` of block `t` is row
  `2000 t + r` of the array, so every block is the restriction of ONE whole-array function, the matrix product, and
  the 25 blocks cover all 50000 rows: the array the region leaves is that product of the arrays it finds.
-/
import proofs.«172521_j83751862272702_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Region0

open Cert.KernelIdeal Cert.KernelIdeal.Gen
open Idealize.ShloMosaic Idealize.ShloMosaic.TcCoe Idealize.SL.Sem
open Idealize.ShloMosaic.Pipeline (Dat Cfg Window)

/-! ## The product, index by index -/

/-- Entry `(i 0, k)` of the left operand; -/
abbrev lrowA (i : S50000x256.Idx) (k : Fin 128) : S50000x128.Idx := fun a => match a with
  | ⟨0, _⟩ => ⟨(i 0).val, (i 0).isLt⟩
  | ⟨1, _⟩ => ⟨k.val, k.isLt⟩
/-- entry `(k, i 1)` of the right one. -/
abbrev rcolA (i : S50000x256.Idx) (k : Fin 128) : S128x256.Idx := fun a => match a with
  | ⟨0, _⟩ => ⟨k.val, k.isLt⟩
  | ⟨1, _⟩ => ⟨(i 1).val, (i 1).isLt⟩

/-- The 50000 × 128 by 128 × 256 matrix product on the extended reals. -/
def product (x : (⟨S50000x128, .f32⟩ : BufTy).Contents (Elt Ideal)) (w : (⟨S128x256, .f32⟩ : BufTy).Contents (Elt Ideal)) :
    (⟨S50000x256, .f32⟩ : BufTy).Contents (Elt Ideal) :=
  fun i => ∑ k : Fin 128, x (lrowA i k) * w (rcolA i k)

/-! ## The body's payload at an index of the block -/

/-- The body's matrix product. -/
abbrev D0 : DotDims S2000x128 S128x256 S2000x256 := dot_S2000x128_S128x256_S2000x256_1_0_0_1_n_n

/-- Entry `(j 0, k)` of the left block; -/
abbrev lrow (j : S2000x256.Idx) (k : Fin 128) : S2000x128.Idx := fun a => match a with
  | ⟨0, _⟩ => ⟨(j 0).val, (j 0).isLt⟩
  | ⟨1, _⟩ => ⟨k.val, k.isLt⟩
/-- entry `(k, j 1)` of the right one. -/
abbrev rcol (j : S2000x256.Idx) (k : Fin 128) : S128x256.Idx := fun a => match a with
  | ⟨0, _⟩ => ⟨k.val, k.isLt⟩
  | ⟨1, _⟩ => ⟨(j 1).val, (j 1).isLt⟩

theorem lhs_0 (j : S2000x256.Idx) (q : D0.contr.Idx) : (D0.lhsIdx j q 0).val = (j 0).val := by
  unfold DotDims.lhsIdx
  rw [dif_neg (show ¬(0 : Fin S2000x128.rank) ∈ D0.lhsBatch by decide), dif_pos (show (0 : Fin S2000x128.rank) ∈ D0.lhsNonContracting by decide)]
  rfl
theorem lhs_1 (j : S2000x256.Idx) (q : D0.contr.Idx) : (D0.lhsIdx j q 1).val = (q ⟨0, by decide⟩).val :=
  D0.lhsIdx_val_of_single rfl j q
theorem rhs_0 (j : S2000x256.Idx) (q : D0.contr.Idx) : (D0.rhsIdx j q 0).val = (q ⟨0, by decide⟩).val :=
  D0.rhsIdx_val_of_single rfl j q
theorem rhs_1 (j : S2000x256.Idx) (q : D0.contr.Idx) : (D0.rhsIdx j q 1).val = (j 1).val := by
  unfold DotDims.rhsIdx
  rw [dif_neg (show ¬(1 : Fin S128x256.rank) ∈ D0.rhsBatch by decide), dif_pos (show (1 : Fin S128x256.rank) ∈ D0.rhsNonContracting by decide)]
  rfl

/-- The payload at `(r, q)`: the sum over the 128 contracted columns of the loaded blocks' entries. The narrowing to
    bf16 is the identity, and the zero accumulator adds nothing. -/
theorem pay_apply (x0 : Vec Ideal S2000x128 .f32) (x1 : Vec Ideal S128x256 .f32) (j : S2000x256.Idx) :
    k0_pay1 (F := Ideal) x0 x1 j = ∑ k : Fin 128, x0 (lrow j k) * x1 (rcol j k) := by
  refine (Ideal.matmul_constant_zero_apply D0 none (truncf .bf16 x0 bitsLt_bf16_f32) (truncf .bf16 x1 bitsLt_bf16_f32) j).trans ?_
  rw [← Equiv.sum_comp (ValueIdx.contrEquiv1 D0 128 rfl rfl).symm]
  refine Finset.sum_congr rfl fun k _ => ?_
  have hk := ValueIdx.contrEquiv1_symm_val D0 128 rfl rfl k
  have el : D0.lhsIdx j ((ValueIdx.contrEquiv1 D0 128 rfl rfl).symm k) = lrow j k := funext fun a => Fin.ext (by
    match a with
    | ⟨0, _⟩ => exact lhs_0 _ _
    | ⟨1, _⟩ => exact (lhs_1 _ _).trans hk)
  have er : D0.rhsIdx j ((ValueIdx.contrEquiv1 D0 128 rfl rfl).symm k) = rcol j k := funext fun a => Fin.ext (by
    match a with
    | ⟨0, _⟩ => exact (rhs_0 _ _).trans hk
    | ⟨1, _⟩ => exact rhs_1 _ _)
  rw [el, er]
  rfl

/-! ## From the blocks to the array -/

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps, decided over the 25 points: the left operand's block moves with the result's along the
    rows and sits at column block 0; the right operand's block is always block (0, 0); the result's row block index
    is at most 24 and its column block index 0. -/
theorem index_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) ≤ 24
    ∧ win0_2.index t (1 : Fin 2) = 0 :=
  (by decide +kernel : ∀ t : Fin grid0.N, _)

/-- Every row block is some point's. -/
theorem index_onto : ∀ q : Fin 25, ∃ t : Fin cfg0.N, win0_2.index t = ![q.val, 0] :=
  (by decide +kernel : ∀ q : Fin 25, ∃ t : Fin grid0.N, win0_2.index t = ![q.val, 0])

/-- What point `t` writes back is block `t` of the product of the two arrays the region finds. -/
theorem flushed_eq (c : Dev nD) (t : Fin cfg0.N) :
    (dat0 V c).flushed 2 t = ((cfg0.win 2).blk t).view.read (Elt Ideal) (product (V c main_arg0) (V c main_arg3)) := by
  show (cfg0.win 2).cut (grid0.coords t) ((dat0 V c).after 2 t) = _
  rw [after0_2]
  unfold out0_2
  rw [View.canon_unit_zero zero_offsets]
  simp only [View.ld_unit_zero (S := S2000x128) zero_offsets, View.ld_unit_zero (S := S128x256) zero_offsets]
  obtain ⟨e0, e1, e2, e3, e4, e5⟩ := index_facts t
  funext j
  show k0_pay1 (iblk0 V c 0 t) (iblk0 V c 1 t) j = product (V c main_arg0) (V c main_arg3) (((cfg0.win 2).blk t).view.emb j)
  refine (pay_apply (iblk0 V c 0 t) (iblk0 V c 1 t) j).trans ?_
  unfold product
  refine Finset.sum_congr rfl fun k _ => ?_
  have h0 : iblk0 V c 0 t (lrow j k) = V c main_arg0 (lrowA (((cfg0.win 2).blk t).view.emb j) k) := by
    show V c main_arg0 (((cfg0.win 0).blk t).view.emb (lrow j k)) = V c main_arg0 (lrowA (((cfg0.win 2).blk t).view.emb j) k)
    refine congrArg (V c main_arg0) (funext fun a => Fin.ext ?_)
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 128 + 1 * k.val = k.val; omega
  have h1 : iblk0 V c 1 t (rcol j k) = V c main_arg3 (rcolA (((cfg0.win 2).blk t).view.emb j) k) := by
    show V c main_arg3 (((cfg0.win 1).blk t).view.emb (rcol j k)) = V c main_arg3 (rcolA (((cfg0.win 2).blk t).view.emb j) k)
    refine congrArg (V c main_arg3) (funext fun a => Fin.ext ?_)
    match a with
    | ⟨0, _⟩ => show win0_1.index t (0 : Fin 2) * 128 + 1 * k.val = k.val; omega
    | ⟨1, _⟩ => show win0_1.index t (1 : Fin 2) * 256 + 1 * (j 1).val = win0_2.index t (1 : Fin 2) * 256 + 1 * (j 1).val; omega
  rw [h0, h1]

/-- An index of the array is in point `t`'s block iff each coordinate is in the block's range on its axis. -/
theorem mem_blk (t : Fin cfg0.N) (i : S50000x256.Idx) :
    i ∈ ((cfg0.win 2).blk t).view.set ↔ ∀ a : Fin 2, win0_2.index t a * S2000x256.size a ≤ (i a).val ∧ (i a).val < win0_2.index t a * S2000x256.size a + S2000x256.size a := by
  show i ∈ ((View.whole main_v31).slice (win0_2.rect t)).set ↔ _
  rw [View.set_slice_whole, Rect.mem_set_unit]
  exact Iff.rfl

/-- Every index of the result is in some point's block: row `r` is in row block `r / 2000`. -/
theorem cover (i : S50000x256.Idx) : ∃ t : Fin cfg0.N, (cfg0.win 2).flush t = true ∧ i ∈ ((cfg0.win 2).blk t).view.set := by
  have hi0 : (i 0).val < 50000 := (i 0).isLt
  have hi1 : (i 1).val < 256 := (i 1).isLt
  obtain ⟨t, ht⟩ := index_onto ⟨(i 0).val / 2000, by omega⟩
  have q0 : win0_2.index t (0 : Fin 2) = (i 0).val / 2000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 256 ≤ (i 1).val ∧ (i 1).val < win0_2.index t (1 : Fin 2) * 256 + 256; omega

/-- The array region 0 leaves is the product of the two arrays it finds. -/
theorem value (c : Dev nD) : (dat0 V c).arrAt 2 cfg0.N = product (V c main_arg0) (V c main_arg3) :=
  (dat0 V c).arrAt_eq_of_cover 2 (product (V c main_arg0) (V c main_arg3)) (fun t _ => flushed_eq V c t) cover

end Cert.KernelIdeal.Region0

end
-- ==== Proof.Region1.lean ====
/-
  Region 1: bias, relu, then the second feature transform, tiled over rows.

  The grid has 25 points; point `t` reads rows `2000 t … 2000 t + 1999` of the aggregated features (256 columns), the
  one-row bias, the whole 256 × 256 weight, and writes the same rows of the 50000 × 256 result. In the body the bias row
  is broadcast over the block's rows and added, the sum is clamped below at zero, and the clamped block — narrowed to
  bf16, the identity on extended reals — is multiplied by the weight into a zero accumulator. So entry `(r, q)` of the
  block is `∑ k, max (a (r, k) + b (0, k)) 0 · w (k, q)`. Row `r` of block `t` is row `2000 t + r` of the array, so every
  block is the restriction of one whole-array function, and the 25 blocks cover all 50000 rows.
-/
import proofs.«172521_j83751862272702_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Region1

open Cert.KernelIdeal Cert.KernelIdeal.Gen
open Idealize.ShloMosaic Idealize.ShloMosaic.TcCoe Idealize.SL.Sem
open Idealize.ShloMosaic.Pipeline (Dat Cfg Window)

/-! ## The function, index by index -/

/-- Entry `(i 0, k)` of the features; -/
abbrev lrowA (i : S50000x256.Idx) (k : Fin 256) : S50000x256.Idx := fun a => match a with
  | ⟨0, _⟩ => ⟨(i 0).val, (i 0).isLt⟩
  | ⟨1, _⟩ => ⟨k.val, k.isLt⟩
/-- entry `(0, k)` of the bias row; -/
abbrev biasA (k : Fin 256) : S1x256.Idx := fun a => match a with
  | ⟨0, _⟩ => ⟨0, Nat.one_pos⟩
  | ⟨1, _⟩ => ⟨k.val, k.isLt⟩
/-- entry `(k, i 1)` of the weight. -/
abbrev rcolA (i : S50000x256.Idx) (k : Fin 256) : S256x256.Idx := fun a => match a with
  | ⟨0, _⟩ => ⟨k.val, k.isLt⟩
  | ⟨1, _⟩ => ⟨(i 1).val, (i 1).isLt⟩

/-- `relu (a + b) · w` on the extended reals: the features plus the bias row, clamped below at zero, times the weight. -/
def biasReluProduct (a : (⟨S50000x256, .f32⟩ : BufTy).Contents (Elt Ideal)) (b : (⟨S1x256, .f32⟩ : BufTy).Contents (Elt Ideal))
    (w : (⟨S256x256, .f32⟩ : BufTy).Contents (Elt Ideal)) : (⟨S50000x256, .f32⟩ : BufTy).Contents (Elt Ideal) :=
  fun i => ∑ k : Fin 256, max (a (lrowA i k) + b (biasA k)) (Ideal.ofBits .f32 0x00000000#32) * w (rcolA i k)

/-! ## The body's payload at an index of the block -/

/-- The bias row's entry under column `p 1` of a block. -/
abbrev biasUnder (p : S2000x256.Idx) : S1x256.Idx := fun a => match a with
  | ⟨0, _⟩ => ⟨0, Nat.one_pos⟩
  | ⟨1, _⟩ => ⟨(p 1).val, (p 1).isLt⟩

/-- The clamped block at `p`: the block's entry plus the bias entry under its column, clamped below at zero. The two
    same-shape casts are the identity and the broadcast repeats the one row. -/
theorem act_apply (v0 : Vec Ideal S2000x256 .f32) (v2 : Vec Ideal S1x256 .f32) (p : S2000x256.Idx) :
    maximumf (addf (shapeCast S2000x256 v0 shapeCasts_S2000x256_S2000x256)
        (broadcastTo S2000x256 (shapeCast S1x256 v2 shapeCasts_S1x256_S1x256) broadcasts_S1x256_S2000x256))
      (broadcast S2000x256 (Scalar.ofBits (F := Ideal) .f32 0x00000000#32)) p
    = max (v0 p + v2 (biasUnder p)) (Ideal.ofBits .f32 0x00000000#32) := by
  rw [shapeCast_self, shapeCast_self]
  show max (v0 p + broadcastTo S2000x256 v2 broadcasts_S1x256_S2000x256 p) (Ideal.ofBits .f32 0x00000000#32) = _
  rw [broadcastTo_apply v2 broadcasts_S1x256_S2000x256 p (biasUnder p) (fun a => match a with
    | ⟨0, _⟩ => by show 0 = if (1 : Nat) = 1 then 0 else _; rw [if_pos rfl]
    | ⟨1, _⟩ => by show (p 1).val = if (256 : Nat) = 1 then 0 else (p 1).val; rw [if_neg (by decide)])]

/-- The body's matrix product. -/
abbrev D1 : DotDims S2000x256 S256x256 S2000x256 := dot_S2000x256_S256x256_S2000x256_1_0_0_1_n_n

/-- Entry `(j 0, k)` of the clamped block; -/
abbrev lrow (j : S2000x256.Idx) (k : Fin 256) : S2000x256.Idx := fun a => match a with
  | ⟨0, _⟩ => ⟨(j 0).val, (j 0).isLt⟩
  | ⟨1, _⟩ => ⟨k.val, k.isLt⟩
/-- entry `(k, j 1)` of the weight. -/
abbrev rcol (j : S2000x256.Idx) (k : Fin 256) : S256x256.Idx := fun a => match a with
  | ⟨0, _⟩ => ⟨k.val, k.isLt⟩
  | ⟨1, _⟩ => ⟨(j 1).val, (j 1).isLt⟩

theorem lhs_0 (j : S2000x256.Idx) (q : D1.contr.Idx) : (D1.lhsIdx j q 0).val = (j 0).val := by
  unfold DotDims.lhsIdx
  rw [dif_neg (show ¬(0 : Fin S2000x256.rank) ∈ D1.lhsBatch by decide), dif_pos (show (0 : Fin S2000x256.rank) ∈ D1.lhsNonContracting by decide)]
  rfl
theorem lhs_1 (j : S2000x256.Idx) (q : D1.contr.Idx) : (D1.lhsIdx j q 1).val = (q ⟨0, by decide⟩).val :=
  D1.lhsIdx_val_of_single rfl j q
theorem rhs_0 (j : S2000x256.Idx) (q : D1.contr.Idx) : (D1.rhsIdx j q 0).val = (q ⟨0, by decide⟩).val :=
  D1.rhsIdx_val_of_single rfl j q
theorem rhs_1 (j : S2000x256.Idx) (q : D1.contr.Idx) : (D1.rhsIdx j q 1).val = (j 1).val := by
  unfold DotDims.rhsIdx
  rw [dif_neg (show ¬(1 : Fin S256x256.rank) ∈ D1.rhsBatch by decide), dif_pos (show (1 : Fin S256x256.rank) ∈ D1.rhsNonContracting by decide)]
  rfl

theorem biasUnder_lrow (j : S2000x256.Idx) (k : Fin 256) : biasUnder (lrow j k) = biasA k :=
  funext fun a => Fin.ext (by
    match a with
    | ⟨0, _⟩ => rfl
    | ⟨1, _⟩ => rfl)

/-- The payload at `(r, q)`: the sum over the 256 contracted columns of the clamped block's entries times the weight's. -/
theorem pay_apply (x0 : Vec Ideal S2000x256 .f32) (x1 : Vec Ideal S1x256 .f32) (x2 : Vec Ideal S256x256 .f32) (j : S2000x256.Idx) :
    k1_pay1 (F := Ideal) x0 x1 x2 j
      = ∑ k : Fin 256, max (x0 (lrow j k) + x1 (biasA k)) (Ideal.ofBits .f32 0x00000000#32) * x2 (rcol j k) := by
  refine (Ideal.matmul_constant_zero_apply D1 none
    (truncf .bf16 (maximumf (addf (shapeCast S2000x256 x0 shapeCasts_S2000x256_S2000x256)
        (broadcastTo S2000x256 (shapeCast S1x256 x1 shapeCasts_S1x256_S1x256) broadcasts_S1x256_S2000x256))
      (broadcast S2000x256 (Scalar.ofBits (F := Ideal) .f32 0x00000000#32))) bitsLt_bf16_f32)
    (truncf .bf16 x2 bitsLt_bf16_f32) j).trans ?_
  rw [← Equiv.sum_comp (ValueIdx.contrEquiv1 D1 256 rfl rfl).symm]
  refine Finset.sum_congr rfl fun k _ => ?_
  have hk := ValueIdx.contrEquiv1_symm_val D1 256 rfl rfl k
  have el : D1.lhsIdx j ((ValueIdx.contrEquiv1 D1 256 rfl rfl).symm k) = lrow j k := funext fun a => Fin.ext (by
    match a with
    | ⟨0, _⟩ => exact lhs_0 _ _
    | ⟨1, _⟩ => exact (lhs_1 _ _).trans hk)
  have er : D1.rhsIdx j ((ValueIdx.contrEquiv1 D1 256 rfl rfl).symm k) = rcol j k := funext fun a => Fin.ext (by
    match a with
    | ⟨0, _⟩ => exact (rhs_0 _ _).trans hk
    | ⟨1, _⟩ => exact rhs_1 _ _)
  rw [el, er, ← biasUnder_lrow j k]
  exact congrArg (· * x2 (rcol j k)) (act_apply x0 x1 (lrow j k))

/-! ## From the blocks to the array -/

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps, decided over the 25 points: the features' block moves with the result's along the rows and
    sits at column block 0; the bias and the weight are always block (0, 0); the result's row block index is at most 24
    and its column block index 0. -/
theorem index_facts : ∀ t : Fin cfg1.N, win1_0.index t (0 : Fin 2) = win1_3.index t (0 : Fin 2)
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (0 : Fin 2) ≤ 24
    ∧ win1_3.index t (1 : Fin 2) = 0 :=
  (by decide +kernel : ∀ t : Fin grid1.N, _)

/-- Every row block is some point's. -/
theorem index_onto : ∀ q : Fin 25, ∃ t : Fin cfg1.N, win1_3.index t = ![q.val, 0] :=
  (by decide +kernel : ∀ q : Fin 25, ∃ t : Fin grid1.N, win1_3.index t = ![q.val, 0])

/-- What point `t` writes back is block `t` of that function of the three arrays the region finds. -/
theorem flushed_eq (c : Dev nD) (t : Fin cfg1.N) :
    (dat1 V c).flushed 3 t
      = ((cfg1.win 3).blk t).view.read (Elt Ideal) (biasReluProduct (V c main_v44) (V c main_v45) (V c main_arg5)) := by
  show (cfg1.win 3).cut (grid1.coords t) ((dat1 V c).after 3 t) = _
  rw [after1_3]
  unfold out1_3
  rw [View.canon_unit_zero zero_offsets]
  simp only [View.ld_unit_zero (S := S2000x256) zero_offsets, View.ld_unit_zero (S := S1x256) zero_offsets,
    View.ld_unit_zero (S := S256x256) zero_offsets]
  obtain ⟨e0, e1, e2, e3, e4, e5, e6, e7⟩ := index_facts t
  funext j
  show k1_pay1 (iblk1 V c 0 t) (iblk1 V c 1 t) (iblk1 V c 2 t) j
    = biasReluProduct (V c main_v44) (V c main_v45) (V c main_arg5) (((cfg1.win 3).blk t).view.emb j)
  refine (pay_apply (iblk1 V c 0 t) (iblk1 V c 1 t) (iblk1 V c 2 t) j).trans ?_
  unfold biasReluProduct
  refine Finset.sum_congr rfl fun k _ => ?_
  have h0 : iblk1 V c 0 t (lrow j k) = V c main_v44 (lrowA (((cfg1.win 3).blk t).view.emb j) k) := by
    show V c main_v44 (((cfg1.win 0).blk t).view.emb (lrow j k)) = V c main_v44 (lrowA (((cfg1.win 3).blk t).view.emb j) k)
    refine congrArg (V c main_v44) (funext fun a => Fin.ext ?_)
    match a with
    | ⟨0, _⟩ => show win1_0.index t (0 : Fin 2) * 2000 + 1 * (j 0).val = win1_3.index t (0 : Fin 2) * 2000 + 1 * (j 0).val; omega
    | ⟨1, _⟩ => show win1_0.index t (1 : Fin 2) * 256 + 1 * k.val = k.val; omega
  have h1 : iblk1 V c 1 t (biasA k) = V c main_v45 (biasA k) := by
    show V c main_v45 (((cfg1.win 1).blk t).view.emb (biasA k)) = V c main_v45 (biasA k)
    refine congrArg (V c main_v45) (funext fun a => Fin.ext ?_)
    match a with
    | ⟨0, _⟩ => show win1_1.index t (0 : Fin 2) * 1 + 1 * 0 = 0; omega
    | ⟨1, _⟩ => show win1_1.index t (1 : Fin 2) * 256 + 1 * k.val = k.val; omega
  have h2 : iblk1 V c 2 t (rcol j k) = V c main_arg5 (rcolA (((cfg1.win 3).blk t).view.emb j) k) := by
    show V c main_arg5 (((cfg1.win 2).blk t).view.emb (rcol j k)) = V c main_arg5 (rcolA (((cfg1.win 3).blk t).view.emb j) k)
    refine congrArg (V c main_arg5) (funext fun a => Fin.ext ?_)
    match a with
    | ⟨0, _⟩ => show win1_2.index t (0 : Fin 2) * 256 + 1 * k.val = k.val; omega
    | ⟨1, _⟩ => show win1_2.index t (1 : Fin 2) * 256 + 1 * (j 1).val = win1_3.index t (1 : Fin 2) * 256 + 1 * (j 1).val; omega
  rw [h0, h1, h2]

/-- An index of the array is in point `t`'s block iff each coordinate is in the block's range on its axis. -/
theorem mem_blk (t : Fin cfg1.N) (i : S50000x256.Idx) :
    i ∈ ((cfg1.win 3).blk t).view.set ↔ ∀ a : Fin 2, win1_3.index t a * S2000x256.size a ≤ (i a).val ∧ (i a).val < win1_3.index t a * S2000x256.size a + S2000x256.size a := by
  show i ∈ ((View.whole main_v46).slice (win1_3.rect t)).set ↔ _
  rw [View.set_slice_whole, Rect.mem_set_unit]
  exact Iff.rfl

/-- Every index of the result is in some point's block: row `r` is in row block `r / 2000`. -/
theorem cover (i : S50000x256.Idx) : ∃ t : Fin cfg1.N, (cfg1.win 3).flush t = true ∧ i ∈ ((cfg1.win 3).blk t).view.set := by
  have hi0 : (i 0).val < 50000 := (i 0).isLt
  have hi1 : (i 1).val < 256 := (i 1).isLt
  obtain ⟨t, ht⟩ := index_onto ⟨(i 0).val / 2000, by omega⟩
  have q0 : win1_3.index t (0 : Fin 2) = (i 0).val / 2000 := congrFun ht 0
  have q1 : win1_3.index t (1 : Fin 2) = 0 := congrFun ht 1
  refine ⟨t, flush1_3 t, ?_⟩
  rw [mem_blk]
  intro a
  match a with
  | ⟨0, _⟩ => show win1_3.index t (0 : Fin 2) * 2000 ≤ (i 0).val ∧ (i 0).val < win1_3.index t (0 : Fin 2) * 2000 + 2000; omega
  | ⟨1, _⟩ => show win1_3.index t (1 : Fin 2) * 256 ≤ (i 1).val ∧ (i 1).val < win1_3.index t (1 : Fin 2) * 256 + 256; omega

/-- The array region 1 leaves is `relu (a + b) · w` of the three arrays it finds. -/
theorem value (c : Dev nD) : (dat1 V c).arrAt 3 cfg1.N = biasReluProduct (V c main_v44) (V c main_v45) (V c main_arg5) :=
  (dat1 V c).arrAt_eq_of_cover 3 (biasReluProduct (V c main_v44) (V c main_v45) (V c main_arg5)) (fun t _ => flushed_eq V c t) cover

end Cert.KernelIdeal.Region1

end
-- ==== Proof.Region2.lean ====
/-
  Region 2: bias, relu, then the third feature transform, tiled over rows.

  The same kernel function as region 1 on other buffers: point `t` of 25 reads rows `2000 t … 2000 t + 1999` of the second
  layer's aggregated features, the second bias row and the third 256 × 256 weight, and writes the same rows of the
  result. Its payload is region 1's term, so entry `(r, q)` of the block is again `∑ k, max (a (r, k) + b (0, k)) 0 · w (k, q)`;
  the blocks are the restrictions of that one function of the arrays the region finds, and they cover all 50000 rows.
-/
import proofs.«172521_j83751862272702_1_alg».proof.Proof.Region1

set_option maxRecDepth 16384

noncomputable section

namespace Cert.KernelIdeal.Region2

open Cert.KernelIdeal Cert.KernelIdeal.Gen
open Idealize.ShloMosaic Idealize.ShloMosaic.TcCoe Idealize.SL.Sem
open Idealize.ShloMosaic.Pipeline (Dat Cfg Window)
open Cert.KernelIdeal.Region1 (biasReluProduct lrowA biasA rcolA lrow rcol zero_offsets)

/-- The payload is region 1's term: the same sum at `(r, q)`. -/
theorem pay_apply (x0 : Vec Ideal S2000x256 .f32) (x1 : Vec Ideal S1x256 .f32) (x2 : Vec Ideal S256x256 .f32) (j : S2000x256.Idx) :
    k2_pay1 (F := Ideal) x0 x1 x2 j
      = ∑ k : Fin 256, max (x0 (lrow j k) + x1 (biasA k)) (Ideal.ofBits .f32 0x00000000#32) * x2 (rcol j k) :=
  Cert.KernelIdeal.Region1.pay_apply x0 x1 x2 j

/-! ## From the blocks to the array -/

variable (V : (c : Dev nD) → (b : Ref sig .tc) → Buf (Elt Ideal) ((c : Thread nD τ).loc b))

/-- The printed index maps, decided over the 25 points: the features' block moves with the result's along the rows and
    sits at column block 0; the bias and the weight are always block (0, 0); the result's row block index is at most 24
    and its column block index 0. -/
theorem index_facts : ∀ t : Fin cfg2.N, win2_0.index t (0 : Fin 2) = win2_3.index t (0 : Fin 2)
    ∧ win2_0.index t (1 : Fin 2) = 0
    ∧ win2_1.index t (0 : Fin 2) = 0
    ∧ win2_1.index t (1 : Fin 2) = 0
    ∧ win2_2.index t (0 : Fin 2) = 0
    ∧ win2_2.index t (1 : Fin 2) = 0
    ∧ win2_3.index t (0 : Fin 2) ≤ 24
    ∧ win2_3.index t (1 : Fin 2) = 0 :=
  (by decide +kernel : ∀ t : Fin grid2.N, _)

/-- Every row block is some point's. -/
theorem index_onto : ∀ q : Fin 25, ∃ t : Fin cfg2.N, win2_3.index t = ![q.val, 0] :=
  (by decide +kernel : ∀ q : Fin 25, ∃ t : Fin grid2.N, win2_3.index t = ![q.val, 0])

/-- What point `t` writes back is block `t` of that function of the three arrays the region finds. -/
theorem flushed_eq (c : Dev nD) (t : Fin cfg2.N) :
    (dat2 V c).flushed 3 t
      = ((cfg2.win 3).blk t).view.read (Elt Ideal) (biasReluProduct (V c main_v59) (V c main_v60) (V c main_arg7)) := by
  show (cfg2.win 3).cut (grid2.coords t) ((dat2 V c).after 3 t) = _
  rw [after2_3]
  unfold out2_3
  rw [View.canon_unit_zero zero_offsets]
  simp only [View.ld_unit_zero (S := S2000x256) zero_offsets, View.ld_unit_zero (S := S1x256) zero_offsets,
    View.ld_unit_zero (S := S256x256) zero_offsets]
  obtain ⟨e0, e1, e2, e3, e4, e5, e6, e7⟩ := index_facts t
  funext j
  show k2_pay1 (iblk2 V c 0 t) (iblk2 V c 1 t) (iblk2 V c 2 t) j
    = biasReluProduct (V c main_v59) (V c main_v60) (V c main_arg7) (((cfg2.win 3).blk t).view.emb j)
  refine (pay_apply (iblk2 V c 0 t) (iblk2 V c 1 t) (iblk2 V c 2 t) j).trans ?_
  unfold biasReluProduct
  refine Finset.sum_congr rfl fun k _ => ?_
  have h0 : iblk2 V c 0 t (lrow j k) = V c main_v59 (lrowA (((cfg2.win 3).blk t).view.emb j) k) := by
    show V c main_v59 (((cfg2.win 0).blk t).view.emb (lrow j k)) = V c main_v59 (lrowA (((cfg2.win 3).blk t).view.emb j) k)
    refine congrArg (V c main_v59) (funext fun a => Fin.ext ?_)
    match a with
    | ⟨0, _⟩ => show win2_0.index t (0 : Fin 2) * 2000 + 1 * (j 0).val = win2_3.index t (0 : Fin 2) * 2000 + 1 * (j 0).val; omega
    | ⟨1, _⟩ => show win2_0.index t (1 : Fin 2) * 256 + 1 * k.val = k.val; omega
  have h1 : iblk2 V c 1 t (biasA k) = V c main_v60 (biasA k) := by
    show V c main_v60 (((cfg2.win 1).blk t).view.emb (biasA k)) = V c main_v60 (biasA k)
    refine congrArg (V c main_v60) (funext fun a => Fin.ext ?_)
    match a with
    | ⟨0, _⟩ => show win2_1.index t (0 : Fin 2) * 1 + 1 * 0 = 0; omega
    | ⟨1, _⟩ => show win2_1.index t (1 : Fin 2) * 256 + 1 * k.val = k.val; omega
  have h2 : iblk2 V c 2 t (rcol j k) = V c main_arg7 (rcolA (((cfg2.win 3).blk t).view.emb j) k) := by
    show V c main_arg7 (((cfg2.win 2).blk t).view.emb (rcol j k)) = V c main_arg7 (rcolA (((cfg2.win 3).blk t).view.emb j) k)
    refine congrArg (V c main_arg7) (funext fun a => Fin.ext ?_)
    match a with
    | ⟨0, _⟩ => show win2_2.index t (0 : Fin 2) * 256 + 1 * k.val = k.val; omega
    | ⟨1, _⟩ => show win2_2.index t (1 : Fin 2) * 256 + 1 * (j 1).val = win2_3.index t (1 : Fin 2) * 256 + 1 * (j 1).val; omega
  rw [h0, h1, h2]

/-- An index of the array is in point `t`'s block iff each coordinate is in the block's range on its axis. -/
theorem mem_blk (t : Fin cfg2.N) (i : S50000x256.Idx) :
    i ∈ ((cfg2.win 3).blk t).view.set ↔ ∀ a : Fin 2, win2_3.index t a * S2000x256.size a ≤ (i a).val ∧ (i a).val < win2_3.index t a * S2000x256.size a + S2000x256.size a := by
  show i ∈ ((View.whole main_v61).slice (win2_3.rect t)).set ↔ _
  rw [View.set_slice_whole, Rect.mem_set_unit]
  exact Iff.rfl

/-- Every index of the result is in some point's block: row `r` is in row block `r / 2000`. -/
theorem cover (i : S50000x256.Idx) : ∃ t : Fin cfg2.N, (cfg2.win 3).flush t = true ∧ i ∈ ((cfg2.win 3).blk t).view.set := by
  have hi0 : (i 0).val < 50000 := (i 0).isLt
  have hi1 : (i 1).val < 256 := (i 1).isLt
  obtain ⟨t, ht⟩ := index_onto ⟨(i 0).val / 2000, by omega⟩
  have q0 : win2_3.index t (0 : Fin 2) = (i 0).val / 2000 := congrFun ht 0
  have q1 : win2_3.index t (1 : Fin 2) = 0 := congrFun ht 1
  refine ⟨t, flush2_3 t, ?_⟩
  rw [mem_blk]
  intro a
  match a with
  | ⟨0, _⟩ => show win2_3.index t (0 : Fin 2) * 2000 ≤ (i 0).val ∧ (i 0).val < win2_3.index t (0 : Fin 2) * 2000 + 2000; omega
  | ⟨1, _⟩ => show win2_3.index t (1 : Fin 2) * 256 ≤ (i 1).val ∧ (i 1).val < win2_3.index t (1 : Fin 2) * 256 + 256; omega

/-- The array region 2 leaves is `relu (a + b) · w` of the three arrays it finds. -/
theorem value (c : Dev nD) : (dat2 V c).arrAt 3 cfg2.N = biasReluProduct (V c main_v59) (V c main_v60) (V c main_arg7) :=
  (dat2 V c).arrAt_eq_of_cover 3 (biasReluProduct (V c main_v59) (V c main_v60) (V c main_arg7)) (fun t _ => flushed_eq V c t) cover

end Cert.KernelIdeal.Region2

end
-- ==== Proof.Region3.lean ====
/-
  Region 3: the last layer's bias and relu, tiled over rows.

  Point `t` of 25 reads rows `2000 t … 2000 t + 1999` of the third layer's aggregated features and the third bias row, and
  writes the same rows of the result: the bias row broadcast over the block's rows and added, the sum clamped below at
  zero. Entry `(r, q)` of the block is `max (a (r, q) + b (0, q)) 0`, a pointwise function of the arrays the region
  finds, so every block is the restriction of one whole-array function, and the 25 blocks cover all 50000 rows.
-/
import proofs.«172521_j83751862272702_1_alg».proof.Proof.Region1

set_option maxRecDepth 16384

noncomputable section

namespace Cert.KernelIdeal.Region3

open Cert.KernelIdeal Cert.KernelIdeal.Gen
open Idealize.ShloMosaic Idealize.ShloMosaic.TcCoe Idealize.SL.Sem
open Idealize.ShloMosaic.Pipeline (Dat Cfg Window)
open Cert.KernelIdeal.Region1 (biasUnder act_apply zero_offsets)

/-! ## The function, index by index -/

/-- The bias row's entry under column `i 1` of the array. -/
abbrev biasOf (i : S50000x256.Idx) : S1x256.Idx := fun a => match a with
  | ⟨0, _⟩ => ⟨0, Nat.one_pos⟩
  | ⟨1, _⟩ => ⟨(i 1).val, (i 1).isLt⟩

/-- `relu (a + b)` on the extended reals: the features plus the bias row, clamped below at zero. -/
def biasRelu (a : (⟨S50000x256, .f32⟩ : BufTy).Contents (Elt Ideal)) (b : (⟨S1x256, .f32⟩ : BufTy).Contents (Elt Ideal)) :
    (⟨S50000x256, .f32⟩ : BufTy).Contents (Elt Ideal) :=
  fun i => max (a i + b (biasOf i)) (Ideal.ofBits .f32 0x00000000#32)

/-! ## From the blocks to the array -/

variable (V : (c : Dev nD) → (b : Ref sig .tc) → Buf (Elt Ideal) ((c : Thread nD τ).loc b))

/-- The printed index maps, decided over the 25 points: the features' block is the result's block; the bias is always
    block (0, 0); the result's row block index is at most 24 and its column block index 0. -/
theorem index_facts : ∀ t : Fin cfg3.N, win3_0.index t (0 : Fin 2) = win3_2.index t (0 : Fin 2)
    ∧ win3_0.index t (1 : Fin 2) = win3_2.index t (1 : Fin 2)
    ∧ win3_1.index t (0 : Fin 2) = 0
    ∧ win3_1.index t (1 : Fin 2) = 0
    ∧ win3_2.index t (0 : Fin 2) ≤ 24
    ∧ win3_2.index t (1 : Fin 2) = 0 :=
  (by decide +kernel : ∀ t : Fin grid3.N, _)

/-- Every row block is some point's. -/
theorem index_onto : ∀ q : Fin 25, ∃ t : Fin cfg3.N, win3_2.index t = ![q.val, 0] :=
  (by decide +kernel : ∀ q : Fin 25, ∃ t : Fin grid3.N, win3_2.index t = ![q.val, 0])

/-- What point `t` writes back is block `t` of that function of the two arrays the region finds. -/
theorem flushed_eq (c : Dev nD) (t : Fin cfg3.N) :
    (dat3 V c).flushed 2 t = ((cfg3.win 2).blk t).view.read (Elt Ideal) (biasRelu (V c main_v74) (V c main_v75)) := by
  show (cfg3.win 2).cut (grid3.coords t) ((dat3 V c).after 2 t) = _
  rw [after3_2]
  unfold out3_2
  rw [View.canon_unit_zero zero_offsets]
  simp only [View.ld_unit_zero (S := S2000x256) zero_offsets, View.ld_unit_zero (S := S1x256) zero_offsets]
  obtain ⟨e0, e1, e2, e3, e4, e5⟩ := index_facts t
  funext j
  show k3_pay1 (iblk3 V c 0 t) (iblk3 V c 1 t) j = biasRelu (V c main_v74) (V c main_v75) (((cfg3.win 2).blk t).view.emb j)
  refine (act_apply (iblk3 V c 0 t) (iblk3 V c 1 t) j).trans ?_
  unfold biasRelu
  have h0 : iblk3 V c 0 t j = V c main_v74 (((cfg3.win 2).blk t).view.emb j) := by
    show V c main_v74 (((cfg3.win 0).blk t).view.emb j) = V c main_v74 (((cfg3.win 2).blk t).view.emb j)
    refine congrArg (V c main_v74) (funext fun a => Fin.ext ?_)
    match a with
    | ⟨0, _⟩ => show win3_0.index t (0 : Fin 2) * 2000 + 1 * (j 0).val = win3_2.index t (0 : Fin 2) * 2000 + 1 * (j 0).val; omega
    | ⟨1, _⟩ => show win3_0.index t (1 : Fin 2) * 256 + 1 * (j 1).val = win3_2.index t (1 : Fin 2) * 256 + 1 * (j 1).val; omega
  have h1 : iblk3 V c 1 t (biasUnder j) = V c main_v75 (biasOf (((cfg3.win 2).blk t).view.emb j)) := by
    show V c main_v75 (((cfg3.win 1).blk t).view.emb (biasUnder j)) = V c main_v75 (biasOf (((cfg3.win 2).blk t).view.emb j))
    refine congrArg (V c main_v75) (funext fun a => Fin.ext ?_)
    match a with
    | ⟨0, _⟩ => show win3_1.index t (0 : Fin 2) * 1 + 1 * 0 = 0; omega
    | ⟨1, _⟩ => show win3_1.index t (1 : Fin 2) * 256 + 1 * (j 1).val = win3_2.index t (1 : Fin 2) * 256 + 1 * (j 1).val; omega
  rw [h0, h1]

/-- An index of the array is in point `t`'s block iff each coordinate is in the block's range on its axis. -/
theorem mem_blk (t : Fin cfg3.N) (i : S50000x256.Idx) :
    i ∈ ((cfg3.win 2).blk t).view.set ↔ ∀ a : Fin 2, win3_2.index t a * S2000x256.size a ≤ (i a).val ∧ (i a).val < win3_2.index t a * S2000x256.size a + S2000x256.size a := by
  show i ∈ ((View.whole main_v76).slice (win3_2.rect t)).set ↔ _
  rw [View.set_slice_whole, Rect.mem_set_unit]
  exact Iff.rfl

/-- Every index of the result is in some point's block: row `r` is in row block `r / 2000`. -/
theorem cover (i : S50000x256.Idx) : ∃ t : Fin cfg3.N, (cfg3.win 2).flush t = true ∧ i ∈ ((cfg3.win 2).blk t).view.set := by
  have hi0 : (i 0).val < 50000 := (i 0).isLt
  have hi1 : (i 1).val < 256 := (i 1).isLt
  obtain ⟨t, ht⟩ := index_onto ⟨(i 0).val / 2000, by omega⟩
  have q0 : win3_2.index t (0 : Fin 2) = (i 0).val / 2000 := congrFun ht 0
  have q1 : win3_2.index t (1 : Fin 2) = 0 := congrFun ht 1
  refine ⟨t, flush3_2 t, ?_⟩
  rw [mem_blk]
  intro a
  match a with
  | ⟨0, _⟩ => show win3_2.index t (0 : Fin 2) * 2000 ≤ (i 0).val ∧ (i 0).val < win3_2.index t (0 : Fin 2) * 2000 + 2000; omega
  | ⟨1, _⟩ => show win3_2.index t (1 : Fin 2) * 256 ≤ (i 1).val ∧ (i 1).val < win3_2.index t (1 : Fin 2) * 256 + 256; omega

/-- The array region 3 leaves is `relu (a + b)` of the two arrays it finds. -/
theorem value (c : Dev nD) : (dat3 V c).arrAt 2 cfg3.N = biasRelu (V c main_v74) (V c main_v75) :=
  (dat3 V c).arrAt_eq_of_cover 2 (biasRelu (V c main_v74) (V c main_v75)) (fun t _ => flushed_eq V c t) cover

end Cert.KernelIdeal.Region3

end
-- ==== Proof.Region4.lean ====
/-
  Region 4: the two-layer head on the pooled features, in one block.

  The grid has one point; every window's block is its whole array. In the body the 2048 × 256 pooled features times the
  256 × 128 first weight (both narrowed to bf16, the identity on extended reals, into a zero accumulator) give the hidden
  layer; the first bias row is broadcast over the rows and added, the sum is clamped below at zero; the clamped hidden
  layer times the 128 × 32 second weight, plus the second bias row broadcast over the rows, is the result. So entry
  `(r, q)` is `(∑ k₂, max ((∑ k₁, h (r, k₁) · w₁ (k₁, k₂)) + b₁ (0, k₂)) 0 · w₂ (k₂, q)) + b₂ (0, q)`, and the one block
  is the whole array.
-/
import proofs.«172521_j83751862272702_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Region4

open Cert.KernelIdeal Cert.KernelIdeal.Gen
open Idealize.ShloMosaic Idealize.ShloMosaic.TcCoe Idealize.SL.Sem
open Idealize.ShloMosaic.Pipeline (Dat Cfg Window)

/-! ## The function, index by index -/

/-- Entry `(i 0, k₁)` of the pooled features; -/
abbrev featAt (i : S2048x32.Idx) (k1 : Fin 256) : S2048x256.Idx := fun a => match a with
  | ⟨0, _⟩ => ⟨(i 0).val, (i 0).isLt⟩
  | ⟨1, _⟩ => ⟨k1.val, k1.isLt⟩
/-- entry `(k₁, k₂)` of the first weight; -/
abbrev w1At (k1 : Fin 256) (k2 : Fin 128) : S256x128.Idx := fun a => match a with
  | ⟨0, _⟩ => ⟨k1.val, k1.isLt⟩
  | ⟨1, _⟩ => ⟨k2.val, k2.isLt⟩
/-- entry `(0, k₂)` of the first bias row; -/
abbrev b1At (k2 : Fin 128) : S1x128.Idx := fun a => match a with
  | ⟨0, _⟩ => ⟨0, Nat.one_pos⟩
  | ⟨1, _⟩ => ⟨k2.val, k2.isLt⟩
/-- entry `(k₂, i 1)` of the second weight; -/
abbrev w2At (i : S2048x32.Idx) (k2 : Fin 128) : S128x32.Idx := fun a => match a with
  | ⟨0, _⟩ => ⟨k2.val, k2.isLt⟩
  | ⟨1, _⟩ => ⟨(i 1).val, (i 1).isLt⟩
/-- entry `(0, i 1)` of the second bias row. -/
abbrev b2At (i : S2048x32.Idx) : S1x32.Idx := fun a => match a with
  | ⟨0, _⟩ => ⟨0, Nat.one_pos⟩
  | ⟨1, _⟩ => ⟨(i 1).val, (i 1).isLt⟩

/-- The hidden layer before the clamp, at `(i 0, k₂)`. -/
def hidden (h : (⟨S2048x256, .f32⟩ : BufTy).Contents (Elt Ideal)) (w1 : (⟨S256x128, .f32⟩ : BufTy).Contents (Elt Ideal))
    (b1 : (⟨S1x128, .f32⟩ : BufTy).Contents (Elt Ideal)) (i : S2048x32.Idx) (k2 : Fin 128) : EReal :=
  (∑ k1 : Fin 256, h (featAt i k1) * w1 (w1At k1 k2)) + b1 (b1At k2)

/-- `relu (h · w₁ + b₁) · w₂ + b₂` on the extended reals. -/
def head (h : (⟨S2048x256, .f32⟩ : BufTy).Contents (Elt Ideal)) (w1 : (⟨S256x128, .f32⟩ : BufTy).Contents (Elt Ideal))
    (b1 : (⟨S1x128, .f32⟩ : BufTy).Contents (Elt Ideal)) (w2 : (⟨S128x32, .f32⟩ : BufTy).Contents (Elt Ideal))
    (b2 : (⟨S1x32, .f32⟩ : BufTy).Contents (Elt Ideal)) : (⟨S2048x32, .f32⟩ : BufTy).Contents (Elt Ideal) :=
  fun i => (∑ k2 : Fin 128, max (hidden h w1 b1 i k2) (Ideal.ofBits .f32 0x00000000#32) * w2 (w2At i k2)) + b2 (b2At i)

/-! ## The body's payload at an index -/

/-- The first product; -/
abbrev Da : DotDims S2048x256 S256x128 S2048x128 := dot_S2048x256_S256x128_S2048x128_1_0_0_1_n_n
/-- the second. -/
abbrev Db : DotDims S2048x128 S128x32 S2048x32 := dot_S2048x128_S128x32_S2048x32_1_0_0_1_n_n

theorem a_lhs_0 (p : S2048x128.Idx) (q : Da.contr.Idx) : (Da.lhsIdx p q 0).val = (p 0).val := by
  unfold DotDims.lhsIdx
  rw [dif_neg (show ¬(0 : Fin S2048x256.rank) ∈ Da.lhsBatch by decide), dif_pos (show (0 : Fin S2048x256.rank) ∈ Da.lhsNonContracting by decide)]
  rfl
theorem a_lhs_1 (p : S2048x128.Idx) (q : Da.contr.Idx) : (Da.lhsIdx p q 1).val = (q ⟨0, by decide⟩).val :=
  Da.lhsIdx_val_of_single rfl p q
theorem a_rhs_0 (p : S2048x128.Idx) (q : Da.contr.Idx) : (Da.rhsIdx p q 0).val = (q ⟨0, by decide⟩).val :=
  Da.rhsIdx_val_of_single rfl p q
theorem a_rhs_1 (p : S2048x128.Idx) (q : Da.contr.Idx) : (Da.rhsIdx p q 1).val = (p 1).val := by
  unfold DotDims.rhsIdx
  rw [dif_neg (show ¬(1 : Fin S256x128.rank) ∈ Da.rhsBatch by decide), dif_pos (show (1 : Fin S256x128.rank) ∈ Da.rhsNonContracting by decide)]
  rfl
theorem b_lhs_0 (j : S2048x32.Idx) (q : Db.contr.Idx) : (Db.lhsIdx j q 0).val = (j 0).val := by
  unfold DotDims.lhsIdx
  rw [dif_neg (show ¬(0 : Fin S2048x128.rank) ∈ Db.lhsBatch by decide), dif_pos (show (0 : Fin S2048x128.rank) ∈ Db.lhsNonContracting by decide)]
  rfl
theorem b_lhs_1 (j : S2048x32.Idx) (q : Db.contr.Idx) : (Db.lhsIdx j q 1).val = (q ⟨0, by decide⟩).val :=
  Db.lhsIdx_val_of_single rfl j q
theorem b_rhs_0 (j : S2048x32.Idx) (q : Db.contr.Idx) : (Db.rhsIdx j q 0).val = (q ⟨0, by decide⟩).val :=
  Db.rhsIdx_val_of_single rfl j q
theorem b_rhs_1 (j : S2048x32.Idx) (q : Db.contr.Idx) : (Db.rhsIdx j q 1).val = (j 1).val := by
  unfold DotDims.rhsIdx
  rw [dif_neg (show ¬(1 : Fin S128x32.rank) ∈ Db.rhsBatch by decide), dif_pos (show (1 : Fin S128x32.rank) ∈ Db.rhsNonContracting by decide)]
  rfl

/-- Entry `(i 0, k₂)` of the hidden layer's index set. -/
abbrev hidAt (i : S2048x32.Idx) (k2 : Fin 128) : S2048x128.Idx := fun a => match a with
  | ⟨0, _⟩ => ⟨(i 0).val, (i 0).isLt⟩
  | ⟨1, _⟩ => ⟨k2.val, k2.isLt⟩

/-- The first product at `(j 0, k₂)`: the sum over the 256 contracted columns. The same-shape cast and the narrowing to
    bf16 are the identity, and the zero accumulator adds nothing. -/
theorem first_apply (v0 : Vec Ideal S2048x256 .f32) (v3 : Vec Ideal S256x128 .f32) (j : S2048x32.Idx) (k2 : Fin 128) :
    matmul Da none (truncf .bf16 (shapeCast S2048x256 v0 shapeCasts_S2048x256_S2048x256) bitsLt_bf16_f32)
        (truncf .bf16 v3 bitsLt_bf16_f32) (constant (F := Ideal) S2048x128 .f32 0x00000000#32) (hidAt j k2)
      = ∑ k1 : Fin 256, v0 (featAt j k1) * v3 (w1At k1 k2) := by
  rw [shapeCast_self]
  refine (Ideal.matmul_constant_zero_apply Da none (truncf .bf16 v0 bitsLt_bf16_f32) (truncf .bf16 v3 bitsLt_bf16_f32) (hidAt j k2)).trans ?_
  rw [← Equiv.sum_comp (ValueIdx.contrEquiv1 Da 256 rfl rfl).symm]
  refine Finset.sum_congr rfl fun k1 _ => ?_
  have hk := ValueIdx.contrEquiv1_symm_val Da 256 rfl rfl k1
  have el : Da.lhsIdx (hidAt j k2) ((ValueIdx.contrEquiv1 Da 256 rfl rfl).symm k1) = featAt j k1 := funext fun a => Fin.ext (by
    match a with
    | ⟨0, _⟩ => exact a_lhs_0 _ _
    | ⟨1, _⟩ => exact (a_lhs_1 _ _).trans hk)
  have er : Da.rhsIdx (hidAt j k2) ((ValueIdx.contrEquiv1 Da 256 rfl rfl).symm k1) = w1At k1 k2 := funext fun a => Fin.ext (by
    match a with
    | ⟨0, _⟩ => exact (a_rhs_0 _ _).trans hk
    | ⟨1, _⟩ => exact a_rhs_1 _ _)
  rw [el, er]
  rfl

/-- The first bias row broadcast over the rows, at `(j 0, k₂)`: its entry `(0, k₂)`. -/
theorem bias1_apply (v6 : Vec Ideal S1x128 .f32) (j : S2048x32.Idx) (k2 : Fin 128) :
    broadcastTo S2048x128 (shapeCast S1x128 v6 shapeCasts_S1x128_S1x128) broadcasts_S1x128_S2048x128 (hidAt j k2) = v6 (b1At k2) := by
  rw [shapeCast_self]
  exact broadcastTo_apply v6 broadcasts_S1x128_S2048x128 (hidAt j k2) (b1At k2) (fun a => match a with
    | ⟨0, _⟩ => by show 0 = if (1 : Nat) = 1 then 0 else _; rw [if_pos rfl]
    | ⟨1, _⟩ => by show k2.val = if (128 : Nat) = 1 then 0 else k2.val; rw [if_neg (by decide)])

/-- The second bias row broadcast over the rows, at `j`: its entry under `j`'s column. -/
theorem bias2_apply (v16 : Vec Ideal S1x32 .f32) (j : S2048x32.Idx) :
    broadcastTo S2048x32 (shapeCast S1x32 v16 shapeCasts_S1x32_S1x32) broadcasts_S1x32_S2048x32 j = v16 (b2At j) := by
  rw [shapeCast_self]
  exact broadcastTo_apply v16 broadcasts_S1x32_S2048x32 j (b2At j) (fun a => match a with
    | ⟨0, _⟩ => by show 0 = if (1 : Nat) = 1 then 0 else _; rw [if_pos rfl]
    | ⟨1, _⟩ => by show (j 1).val = if (32 : Nat) = 1 then 0 else (j 1).val; rw [if_neg (by decide)])

/-- The payload at `j` is the head's function of the five loaded blocks at `j`. -/
theorem pay_apply (v0 : Vec Ideal S2048x256 .f32) (v3 : Vec Ideal S256x128 .f32) (v6 : Vec Ideal S1x128 .f32)
    (v13 : Vec Ideal S128x32 .f32) (v16 : Vec Ideal S1x32 .f32) (j : S2048x32.Idx) :
    k4_pay1 (F := Ideal) v0 v3 v6 v13 v16 j = head v0 v3 v6 v13 v16 j := by
  show FloatOps.matmul Db none
        (truncf .bf16 (maximumf (addf (matmul Da none (truncf .bf16 (shapeCast S2048x256 v0 shapeCasts_S2048x256_S2048x256) bitsLt_bf16_f32)
            (truncf .bf16 v3 bitsLt_bf16_f32) (constant (F := Ideal) S2048x128 .f32 0x00000000#32))
          (broadcastTo S2048x128 (shapeCast S1x128 v6 shapeCasts_S1x128_S1x128) broadcasts_S1x128_S2048x128))
          (broadcast S2048x128 (Scalar.ofBits (F := Ideal) .f32 0x00000000#32))) bitsLt_bf16_f32)
        (truncf .bf16 v13 bitsLt_bf16_f32) (constant (F := Ideal) S2048x32 .f32 0x00000000#32) j
      + broadcastTo S2048x32 (shapeCast S1x32 v16 shapeCasts_S1x32_S1x32) broadcasts_S1x32_S2048x32 j = _
  rw [bias2_apply, Ideal.matmul_constant_zero_apply, ← Equiv.sum_comp (ValueIdx.contrEquiv1 Db 128 rfl rfl).symm]
  unfold head
  refine congrArg (· + v16 (b2At j)) (Finset.sum_congr rfl fun k2 _ => ?_)
  have hk := ValueIdx.contrEquiv1_symm_val Db 128 rfl rfl k2
  have el : Db.lhsIdx j ((ValueIdx.contrEquiv1 Db 128 rfl rfl).symm k2) = hidAt j k2 := funext fun a => Fin.ext (by
    match a with
    | ⟨0, _⟩ => exact b_lhs_0 _ _
    | ⟨1, _⟩ => exact (b_lhs_1 _ _).trans hk)
  have er : Db.rhsIdx j ((ValueIdx.contrEquiv1 Db 128 rfl rfl).symm k2) = w2At j k2 := funext fun a => Fin.ext (by
    match a with
    | ⟨0, _⟩ => exact (b_rhs_0 _ _).trans hk
    | ⟨1, _⟩ => exact b_rhs_1 _ _)
  rw [el, er]
  refine congrArg (· * v13 (w2At j k2)) ?_
  show max (matmul Da none (truncf .bf16 (shapeCast S2048x256 v0 shapeCasts_S2048x256_S2048x256) bitsLt_bf16_f32)
          (truncf .bf16 v3 bitsLt_bf16_f32) (constant (F := Ideal) S2048x128 .f32 0x00000000#32) (hidAt j k2)
        + broadcastTo S2048x128 (shapeCast S1x128 v6 shapeCasts_S1x128_S1x128) broadcasts_S1x128_S2048x128 (hidAt j k2))
      (Ideal.ofBits .f32 0x00000000#32) = _
  rw [first_apply, bias1_apply]
  rfl

/-! ## The one block is the array -/

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps at the grid's one point: every window's block is block (0, 0). -/
theorem index_facts : ∀ t : Fin cfg4.N, win4_0.index t (0 : Fin 2) = 0 ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0 :=
  (by decide +kernel : ∀ t : Fin grid4.N, _)

/-- What the one point writes back is the whole of the head's function of the five arrays the region finds. -/
theorem flushed_eq (c : Dev nD) (t : Fin cfg4.N) :
    (dat4 V c).flushed 5 t = ((cfg4.win 5).blk t).view.read (Elt Ideal)
      (head (V c main_v88) (V c main_arg9) (V c main_v89) (V c main_arg11) (V c main_v90)) := by
  show (cfg4.win 5).cut (grid4.coords t) ((dat4 V c).after 5 t) = _
  rw [after4_5]
  unfold out4_5
  rw [View.canon_unit_zero zero_offsets]
  simp only [View.ld_unit_zero (S := S2048x256) zero_offsets, View.ld_unit_zero (S := S256x128) zero_offsets,
    View.ld_unit_zero (S := S1x128) zero_offsets, View.ld_unit_zero (S := S128x32) zero_offsets,
    View.ld_unit_zero (S := S1x32) zero_offsets]
  obtain ⟨a0, a1, b0, b1, c0, c1, d0, d1, f0, f1, g0, g1⟩ := index_facts t
  funext j
  show k4_pay1 (iblk4 V c 0 t) (iblk4 V c 1 t) (iblk4 V c 2 t) (iblk4 V c 3 t) (iblk4 V c 4 t) j
    = head (V c main_v88) (V c main_arg9) (V c main_v89) (V c main_arg11) (V c main_v90) (((cfg4.win 5).blk t).view.emb j)
  refine (pay_apply (iblk4 V c 0 t) (iblk4 V c 1 t) (iblk4 V c 2 t) (iblk4 V c 3 t) (iblk4 V c 4 t) j).trans ?_
  have hj : ((cfg4.win 5).blk t).view.emb j = j := funext fun a => Fin.ext (by
    match a with
    | ⟨0, _⟩ => show win4_5.index t (0 : Fin 2) * 2048 + 1 * (j 0).val = (j 0).val; omega
    | ⟨1, _⟩ => show win4_5.index t (1 : Fin 2) * 32 + 1 * (j 1).val = (j 1).val; omega)
  rw [hj]
  have h0 : iblk4 V c 0 t = V c main_v88 := funext fun y => by
    show V c main_v88 (((cfg4.win 0).blk t).view.emb y) = V c main_v88 y
    refine congrArg (V c main_v88) (funext fun a => Fin.ext ?_)
    match a with
    | ⟨0, _⟩ => show win4_0.index t (0 : Fin 2) * 2048 + 1 * (y 0).val = (y 0).val; omega
    | ⟨1, _⟩ => show win4_0.index t (1 : Fin 2) * 256 + 1 * (y 1).val = (y 1).val; omega
  have h1 : iblk4 V c 1 t = V c main_arg9 := funext fun y => by
    show V c main_arg9 (((cfg4.win 1).blk t).view.emb y) = V c main_arg9 y
    refine congrArg (V c main_arg9) (funext fun a => Fin.ext ?_)
    match a with
    | ⟨0, _⟩ => show win4_1.index t (0 : Fin 2) * 256 + 1 * (y 0).val = (y 0).val; omega
    | ⟨1, _⟩ => show win4_1.index t (1 : Fin 2) * 128 + 1 * (y 1).val = (y 1).val; omega
  have h2 : iblk4 V c 2 t = V c main_v89 := funext fun y => by
    show V c main_v89 (((cfg4.win 2).blk t).view.emb y) = V c main_v89 y
    refine congrArg (V c main_v89) (funext fun a => Fin.ext ?_)
    match a with
    | ⟨0, _⟩ => show win4_2.index t (0 : Fin 2) * 1 + 1 * (y 0).val = (y 0).val; omega
    | ⟨1, _⟩ => show win4_2.index t (1 : Fin 2) * 128 + 1 * (y 1).val = (y 1).val; omega
  have h3 : iblk4 V c 3 t = V c main_arg11 := funext fun y => by
    show V c main_arg11 (((cfg4.win 3).blk t).view.emb y) = V c main_arg11 y
    refine congrArg (V c main_arg11) (funext fun a => Fin.ext ?_)
    match a with
    | ⟨0, _⟩ => show win4_3.index t (0 : Fin 2) * 128 + 1 * (y 0).val = (y 0).val; omega
    | ⟨1, _⟩ => show win4_3.index t (1 : Fin 2) * 32 + 1 * (y 1).val = (y 1).val; omega
  have h4 : iblk4 V c 4 t = V c main_v90 := funext fun y => by
    show V c main_v90 (((cfg4.win 4).blk t).view.emb y) = V c main_v90 y
    refine congrArg (V c main_v90) (funext fun a => Fin.ext ?_)
    match a with
    | ⟨0, _⟩ => show win4_4.index t (0 : Fin 2) * 1 + 1 * (y 0).val = (y 0).val; omega
    | ⟨1, _⟩ => show win4_4.index t (1 : Fin 2) * 32 + 1 * (y 1).val = (y 1).val; omega
  rw [h0, h1, h2, h3, h4]

/-- An index of the array is in the point's block iff each coordinate is in the block's range on its axis. -/
theorem mem_blk (t : Fin cfg4.N) (i : S2048x32.Idx) :
    i ∈ ((cfg4.win 5).blk t).view.set ↔ ∀ a : Fin 2, win4_5.index t a * S2048x32.size a ≤ (i a).val ∧ (i a).val < win4_5.index t a * S2048x32.size a + S2048x32.size a := by
  show i ∈ ((View.whole main_v91).slice (win4_5.rect t)).set ↔ _
  rw [View.set_slice_whole, Rect.mem_set_unit]
  exact Iff.rfl

/-- Every index of the result is in the one point's block. -/
theorem cover (i : S2048x32.Idx) : ∃ t : Fin cfg4.N, (cfg4.win 5).flush t = true ∧ i ∈ ((cfg4.win 5).blk t).view.set := by
  have hi0 : (i 0).val < 2048 := (i 0).isLt
  have hi1 : (i 1).val < 32 := (i 1).isLt
  obtain ⟨a0, a1, b0, b1, c0, c1, d0, d1, f0, f1, g0, g1⟩ := index_facts t4_0
  refine ⟨t4_0, flush4_5 t4_0, ?_⟩
  rw [mem_blk]
  intro a
  match a with
  | ⟨0, _⟩ => show win4_5.index t4_0 (0 : Fin 2) * 2048 ≤ (i 0).val ∧ (i 0).val < win4_5.index t4_0 (0 : Fin 2) * 2048 + 2048; omega
  | ⟨1, _⟩ => show win4_5.index t4_0 (1 : Fin 2) * 32 ≤ (i 1).val ∧ (i 1).val < win4_5.index t4_0 (1 : Fin 2) * 32 + 32; omega

/-- The array region 4 leaves is the head's function of the five arrays it finds. -/
theorem value (c : Dev nD) : (dat4 V c).arrAt 5 cfg4.N
    = head (V c main_v88) (V c main_arg9) (V c main_v89) (V c main_arg11) (V c main_v90) :=
  (dat4 V c).arrAt_eq_of_cover 5 (head (V c main_v88) (V c main_arg9) (V c main_v89) (V c main_arg11) (V c main_v90))
    (fun t _ => flushed_eq V c t) cover

end Cert.KernelIdeal.Region4

end
-- ==== Proof.Chain.lean ====
/-
  The kernel's whole computation as one function of the thirteen arguments.

  Three times: a feature transform (the first a plain product, the next two a bias and a relu before the product), then
  the aggregation along the extended edges; then the last layer's bias and relu, the mean pool over graphs, and the
  two-layer head. Each bias enters as one row, the reshape of the vector.
-/
import proofs.«172521_j83751862272702_1_alg».proof.Proof.HostChain
import proofs.«172521_j83751862272702_1_alg».proof.Proof.Region0
import proofs.«172521_j83751862272702_1_alg».proof.Proof.Region1
import proofs.«172521_j83751862272702_1_alg».proof.Proof.Region3
import proofs.«172521_j83751862272702_1_alg».proof.Proof.Region4

noncomputable section

namespace Cert.KernelIdeal

open Idealize.ShloMosaic Idealize.ShloMosaic.TcCoe
open Cert.KernelIdeal.HostChain

/-- The chain of functions: node features `x0`, edge index `x1`, graph ids `x2`, and the five layers' weights and biases. -/
def chain (x0 : (⟨S50000x128, .f32⟩ : BufTy).Contents (Elt Ideal)) (x1 : (⟨S2x300000, .i32⟩ : BufTy).Contents (Elt Ideal)) (x2 : (⟨S50000, .i32⟩ : BufTy).Contents (Elt Ideal))
    (x3 : (⟨S128x256, .f32⟩ : BufTy).Contents (Elt Ideal)) (x4 : (⟨S256, .f32⟩ : BufTy).Contents (Elt Ideal)) (x5 : (⟨S256x256, .f32⟩ : BufTy).Contents (Elt Ideal)) (x6 : (⟨S256, .f32⟩ : BufTy).Contents (Elt Ideal))
    (x7 : (⟨S256x256, .f32⟩ : BufTy).Contents (Elt Ideal)) (x8 : (⟨S256, .f32⟩ : BufTy).Contents (Elt Ideal)) (x9 : (⟨S256x128, .f32⟩ : BufTy).Contents (Elt Ideal)) (x10 : (⟨S128, .f32⟩ : BufTy).Contents (Elt Ideal))
    (x11 : (⟨S128x32, .f32⟩ : BufTy).Contents (Elt Ideal)) (x12 : (⟨S32, .f32⟩ : BufTy).Contents (Elt Ideal)) : (⟨S2048x32, .f32⟩ : BufTy).Contents (Elt Ideal) :=
  Region4.head
    (meanPool
      (Region3.biasRelu
        (aggregate
          (Region1.biasReluProduct
            (aggregate
              (Region1.biasReluProduct
                (aggregate (Region0.product x0 x3) x1)
                (row256 x4) x5)
              x1)
            (row256 x6) x7)
          x1)
        (row256 x8))
      x2)
    x9 (row128 x10) x11 (row32 x12)

end Cert.KernelIdeal

end
-- ==== Proof.KernelValue.lean ====
/-
  The kernel's result is the chain of functions of its arguments.

  The buffers after the twelve segments are a fold of the launch memory. Followed boundary by boundary: the three
  stretches before the first region leave the extended edges' sources and targets and the norm; each region leaves its
  function of the arrays it finds (its output array is its window's array, the others are kept); each stretch between
  regions leaves the aggregation of the region's result and the next bias as one row; the last stretch leaves the mean
  pool and the head's two biases as rows. No stretch and no region writes an argument, the sources, the targets or the
  norm, so each is still what it was when a later segment reads it. Every lemma below says what one buffer holds at one
  boundary: a value computed by the segment before it from the previous boundary's facts, or a buffer kept.
-/
import proofs.«172521_j83751862272702_1_alg».proof.Proof.Gen.KernelIdeal.Frame
import proofs.«172521_j83751862272702_1_alg».proof.Proof.StretchesA
import proofs.«172521_j83751862272702_1_alg».proof.Proof.StretchesB
import proofs.«172521_j83751862272702_1_alg».proof.Proof.Region0
import proofs.«172521_j83751862272702_1_alg».proof.Proof.Region1
import proofs.«172521_j83751862272702_1_alg».proof.Proof.Region2
import proofs.«172521_j83751862272702_1_alg».proof.Proof.Region3
import proofs.«172521_j83751862272702_1_alg».proof.Proof.Region4
import proofs.«172521_j83751862272702_1_alg».proof.Proof.Chain

set_option maxRecDepth 16384

noncomputable section

namespace Cert.KernelIdeal.Value

open Cert.KernelIdeal Cert.KernelIdeal.Gen
open Idealize.ShloMosaic Idealize.ShloMosaic.TcCoe Idealize.SL.Sem
open Cert.KernelIdeal.HostChain

variable (m : (ℓ : Loc nD τ sig) → Buf (Elt Ideal) ℓ) (ρ : Dev nD → PrngReg) (c : Dev nD)

/-- Core `c`'s launch contents of a buffer. -/
abbrev X (b : Ref sig .tc) : Buf (Elt Ideal) ((c : Thread nD τ).loc b) := m ((c : Thread nD τ).loc b)

/-! ## After the first stretch -/

theorem w1_v3 : W1 m ρ c (Proc.devRef .tc main_v3) = sources (X m c main_arg1) := StretchesA.a_v3 (W0 m ρ c)
theorem w1_v6 : W1 m ρ c (Proc.devRef .tc main_v6) = targets (X m c main_arg1) := StretchesA.a_v6 (W0 m ρ c)
theorem w1_v12 : W1 m ρ c (Proc.devRef .tc main_v12) = degreePositive (X m c main_arg1) := StretchesA.a_v12 (W0 m ρ c)
theorem w1_v14 : W1 m ρ c (Proc.devRef .tc main_v14) = degreePow (X m c main_arg1) := StretchesA.a_v14 (W0 m ρ c)
theorem w1_cst_3 : W1 m ρ c (Proc.devRef .tc main_cst_3) = constant (F := Ideal) S_ .f32 0x00000000#32 := StretchesA.a_cst_3 (W0 m ρ c)
theorem w1_arg0 : W1 m ρ c (Proc.devRef .tc main_arg0) = (X m c main_arg0) := StretchesA.a_arg0 (W0 m ρ c)
theorem w1_arg1 : W1 m ρ c (Proc.devRef .tc main_arg1) = (X m c main_arg1) := StretchesA.a_arg1 (W0 m ρ c)
theorem w1_arg2 : W1 m ρ c (Proc.devRef .tc main_arg2) = (X m c main_arg2) := StretchesA.a_arg2 (W0 m ρ c)
theorem w1_arg3 : W1 m ρ c (Proc.devRef .tc main_arg3) = (X m c main_arg3) := StretchesA.a_arg3 (W0 m ρ c)
theorem w1_arg4 : W1 m ρ c (Proc.devRef .tc main_arg4) = (X m c main_arg4) := StretchesA.a_arg4 (W0 m ρ c)
theorem w1_arg5 : W1 m ρ c (Proc.devRef .tc main_arg5) = (X m c main_arg5) := StretchesA.a_arg5 (W0 m ρ c)
theorem w1_arg6 : W1 m ρ c (Proc.devRef .tc main_arg6) = (X m c main_arg6) := StretchesA.a_arg6 (W0 m ρ c)
theorem w1_arg7 : W1 m ρ c (Proc.devRef .tc main_arg7) = (X m c main_arg7) := StretchesA.a_arg7 (W0 m ρ c)
theorem w1_arg8 : W1 m ρ c (Proc.devRef .tc main_arg8) = (X m c main_arg8) := StretchesA.a_arg8 (W0 m ρ c)
theorem w1_arg9 : W1 m ρ c (Proc.devRef .tc main_arg9) = (X m c main_arg9) := StretchesA.a_arg9 (W0 m ρ c)
theorem w1_arg10 : W1 m ρ c (Proc.devRef .tc main_arg10) = (X m c main_arg10) := StretchesA.a_arg10 (W0 m ρ c)
theorem w1_arg11 : W1 m ρ c (Proc.devRef .tc main_arg11) = (X m c main_arg11) := StretchesA.a_arg11 (W0 m ρ c)
theorem w1_arg12 : W1 m ρ c (Proc.devRef .tc main_arg12) = (X m c main_arg12) := StretchesA.a_arg12 (W0 m ρ c)

/-! ## After the second stretch -/

theorem w2_v15 : W2 m ρ c (Proc.devRef .tc main_v15) = nodeFactor (X m c main_arg1) :=
  (StretchesA.b_v15 (W1 m ρ c)).trans (by rw [w1_v12 m ρ c, w1_v14 m ρ c, w1_cst_3 m ρ c]; rfl)
theorem w2_v3 : W2 m ρ c (Proc.devRef .tc main_v3) = sources (X m c main_arg1) := (StretchesA.b_v3 (W1 m ρ c)).trans (w1_v3 m ρ c)
theorem w2_v6 : W2 m ρ c (Proc.devRef .tc main_v6) = targets (X m c main_arg1) := (StretchesA.b_v6 (W1 m ρ c)).trans (w1_v6 m ρ c)
theorem w2_arg0 : W2 m ρ c (Proc.devRef .tc main_arg0) = (X m c main_arg0) := (StretchesA.b_arg0 (W1 m ρ c)).trans (w1_arg0 m ρ c)
theorem w2_arg1 : W2 m ρ c (Proc.devRef .tc main_arg1) = (X m c main_arg1) := (StretchesA.b_arg1 (W1 m ρ c)).trans (w1_arg1 m ρ c)
theorem w2_arg2 : W2 m ρ c (Proc.devRef .tc main_arg2) = (X m c main_arg2) := (StretchesA.b_arg2 (W1 m ρ c)).trans (w1_arg2 m ρ c)
theorem w2_arg3 : W2 m ρ c (Proc.devRef .tc main_arg3) = (X m c main_arg3) := (StretchesA.b_arg3 (W1 m ρ c)).trans (w1_arg3 m ρ c)
theorem w2_arg4 : W2 m ρ c (Proc.devRef .tc main_arg4) = (X m c main_arg4) := (StretchesA.b_arg4 (W1 m ρ c)).trans (w1_arg4 m ρ c)
theorem w2_arg5 : W2 m ρ c (Proc.devRef .tc main_arg5) = (X m c main_arg5) := (StretchesA.b_arg5 (W1 m ρ c)).trans (w1_arg5 m ρ c)
theorem w2_arg6 : W2 m ρ c (Proc.devRef .tc main_arg6) = (X m c main_arg6) := (StretchesA.b_arg6 (W1 m ρ c)).trans (w1_arg6 m ρ c)
theorem w2_arg7 : W2 m ρ c (Proc.devRef .tc main_arg7) = (X m c main_arg7) := (StretchesA.b_arg7 (W1 m ρ c)).trans (w1_arg7 m ρ c)
theorem w2_arg8 : W2 m ρ c (Proc.devRef .tc main_arg8) = (X m c main_arg8) := (StretchesA.b_arg8 (W1 m ρ c)).trans (w1_arg8 m ρ c)
theorem w2_arg9 : W2 m ρ c (Proc.devRef .tc main_arg9) = (X m c main_arg9) := (StretchesA.b_arg9 (W1 m ρ c)).trans (w1_arg9 m ρ c)
theorem w2_arg10 : W2 m ρ c (Proc.devRef .tc main_arg10) = (X m c main_arg10) := (StretchesA.b_arg10 (W1 m ρ c)).trans (w1_arg10 m ρ c)
theorem w2_arg11 : W2 m ρ c (Proc.devRef .tc main_arg11) = (X m c main_arg11) := (StretchesA.b_arg11 (W1 m ρ c)).trans (w1_arg11 m ρ c)
theorem w2_arg12 : W2 m ρ c (Proc.devRef .tc main_arg12) = (X m c main_arg12) := (StretchesA.b_arg12 (W1 m ρ c)).trans (w1_arg12 m ρ c)

/-! ## After the third stretch: the first region's entry -/

theorem w3_v30 : W3 m ρ c (Proc.devRef .tc main_v30) = norm (X m c main_arg1) :=
  (StretchesA.c_v30 (W2 m ρ c)).trans (by rw [w2_v3 m ρ c, w2_v6 m ρ c, w2_v15 m ρ c]; rfl)
theorem w3_v3 : W3 m ρ c (Proc.devRef .tc main_v3) = sources (X m c main_arg1) := (StretchesA.c_v3 (W2 m ρ c)).trans (w2_v3 m ρ c)
theorem w3_v6 : W3 m ρ c (Proc.devRef .tc main_v6) = targets (X m c main_arg1) := (StretchesA.c_v6 (W2 m ρ c)).trans (w2_v6 m ρ c)
theorem w3_arg0 : W3 m ρ c (Proc.devRef .tc main_arg0) = (X m c main_arg0) := (StretchesA.c_arg0 (W2 m ρ c)).trans (w2_arg0 m ρ c)
theorem w3_arg1 : W3 m ρ c (Proc.devRef .tc main_arg1) = (X m c main_arg1) := (StretchesA.c_arg1 (W2 m ρ c)).trans (w2_arg1 m ρ c)
theorem w3_arg2 : W3 m ρ c (Proc.devRef .tc main_arg2) = (X m c main_arg2) := (StretchesA.c_arg2 (W2 m ρ c)).trans (w2_arg2 m ρ c)
theorem w3_arg3 : W3 m ρ c (Proc.devRef .tc main_arg3) = (X m c main_arg3) := (StretchesA.c_arg3 (W2 m ρ c)).trans (w2_arg3 m ρ c)
theorem w3_arg4 : W3 m ρ c (Proc.devRef .tc main_arg4) = (X m c main_arg4) := (StretchesA.c_arg4 (W2 m ρ c)).trans (w2_arg4 m ρ c)
theorem w3_arg5 : W3 m ρ c (Proc.devRef .tc main_arg5) = (X m c main_arg5) := (StretchesA.c_arg5 (W2 m ρ c)).trans (w2_arg5 m ρ c)
theorem w3_arg6 : W3 m ρ c (Proc.devRef .tc main_arg6) = (X m c main_arg6) := (StretchesA.c_arg6 (W2 m ρ c)).trans (w2_arg6 m ρ c)
theorem w3_arg7 : W3 m ρ c (Proc.devRef .tc main_arg7) = (X m c main_arg7) := (StretchesA.c_arg7 (W2 m ρ c)).trans (w2_arg7 m ρ c)
theorem w3_arg8 : W3 m ρ c (Proc.devRef .tc main_arg8) = (X m c main_arg8) := (StretchesA.c_arg8 (W2 m ρ c)).trans (w2_arg8 m ρ c)
theorem w3_arg9 : W3 m ρ c (Proc.devRef .tc main_arg9) = (X m c main_arg9) := (StretchesA.c_arg9 (W2 m ρ c)).trans (w2_arg9 m ρ c)
theorem w3_arg10 : W3 m ρ c (Proc.devRef .tc main_arg10) = (X m c main_arg10) := (StretchesA.c_arg10 (W2 m ρ c)).trans (w2_arg10 m ρ c)
theorem w3_arg11 : W3 m ρ c (Proc.devRef .tc main_arg11) = (X m c main_arg11) := (StretchesA.c_arg11 (W2 m ρ c)).trans (w2_arg11 m ρ c)
theorem w3_arg12 : W3 m ρ c (Proc.devRef .tc main_arg12) = (X m c main_arg12) := (StretchesA.c_arg12 (W2 m ρ c)).trans (w2_arg12 m ρ c)

/-! ## After region 0 -/

theorem w4_v31 : W4 m ρ c (Proc.devRef .tc main_v31) = Region0.product (X m c main_arg0) (X m c main_arg3) :=
  (W4_arr m ρ c 2).trans ((Region0.value (V3 m ρ) c).trans
    (congrArg₂ Region0.product (w3_arg0 m ρ c) (w3_arg3 m ρ c)))
theorem w4_v3 : W4 m ρ c (Proc.devRef .tc main_v3) = sources (X m c main_arg1) := (W4_of_ne m ρ c main_v3 (by decide)).trans (w3_v3 m ρ c)
theorem w4_v6 : W4 m ρ c (Proc.devRef .tc main_v6) = targets (X m c main_arg1) := (W4_of_ne m ρ c main_v6 (by decide)).trans (w3_v6 m ρ c)
theorem w4_v30 : W4 m ρ c (Proc.devRef .tc main_v30) = norm (X m c main_arg1) := (W4_of_ne m ρ c main_v30 (by decide)).trans (w3_v30 m ρ c)
theorem w4_arg2 : W4 m ρ c (Proc.devRef .tc main_arg2) = (X m c main_arg2) := (W4_of_ne m ρ c main_arg2 (by decide)).trans (w3_arg2 m ρ c)
theorem w4_arg4 : W4 m ρ c (Proc.devRef .tc main_arg4) = (X m c main_arg4) := (W4_of_ne m ρ c main_arg4 (by decide)).trans (w3_arg4 m ρ c)
theorem w4_arg5 : W4 m ρ c (Proc.devRef .tc main_arg5) = (X m c main_arg5) := (W4_of_ne m ρ c main_arg5 (by decide)).trans (w3_arg5 m ρ c)
theorem w4_arg6 : W4 m ρ c (Proc.devRef .tc main_arg6) = (X m c main_arg6) := (W4_of_ne m ρ c main_arg6 (by decide)).trans (w3_arg6 m ρ c)
theorem w4_arg7 : W4 m ρ c (Proc.devRef .tc main_arg7) = (X m c main_arg7) := (W4_of_ne m ρ c main_arg7 (by decide)).trans (w3_arg7 m ρ c)
theorem w4_arg8 : W4 m ρ c (Proc.devRef .tc main_arg8) = (X m c main_arg8) := (W4_of_ne m ρ c main_arg8 (by decide)).trans (w3_arg8 m ρ c)
theorem w4_arg9 : W4 m ρ c (Proc.devRef .tc main_arg9) = (X m c main_arg9) := (W4_of_ne m ρ c main_arg9 (by decide)).trans (w3_arg9 m ρ c)
theorem w4_arg10 : W4 m ρ c (Proc.devRef .tc main_arg10) = (X m c main_arg10) := (W4_of_ne m ρ c main_arg10 (by decide)).trans (w3_arg10 m ρ c)
theorem w4_arg11 : W4 m ρ c (Proc.devRef .tc main_arg11) = (X m c main_arg11) := (W4_of_ne m ρ c main_arg11 (by decide)).trans (w3_arg11 m ρ c)
theorem w4_arg12 : W4 m ρ c (Proc.devRef .tc main_arg12) = (X m c main_arg12) := (W4_of_ne m ρ c main_arg12 (by decide)).trans (w3_arg12 m ρ c)

/-! ## After the stretch that follows region 0: region 1's entry -/

theorem w5_v44 : W5 m ρ c (Proc.devRef .tc main_v44) = aggregate (Region0.product (X m c main_arg0) (X m c main_arg3)) (X m c main_arg1) :=
  (StretchesB.s1_v44 (W4 m ρ c)).trans (by rw [w4_v3 m ρ c, w4_v6 m ρ c, w4_v30 m ρ c, w4_v31 m ρ c]; rfl)
theorem w5_v45 : W5 m ρ c (Proc.devRef .tc main_v45) = row256 (X m c main_arg4) :=
  (StretchesB.s1_v45 (W4 m ρ c)).trans (by rw [w4_arg4 m ρ c])
theorem w5_v3 : W5 m ρ c (Proc.devRef .tc main_v3) = sources (X m c main_arg1) := (StretchesB.s1_v3 (W4 m ρ c)).trans (w4_v3 m ρ c)
theorem w5_v6 : W5 m ρ c (Proc.devRef .tc main_v6) = targets (X m c main_arg1) := (StretchesB.s1_v6 (W4 m ρ c)).trans (w4_v6 m ρ c)
theorem w5_v30 : W5 m ρ c (Proc.devRef .tc main_v30) = norm (X m c main_arg1) := (StretchesB.s1_v30 (W4 m ρ c)).trans (w4_v30 m ρ c)
theorem w5_arg2 : W5 m ρ c (Proc.devRef .tc main_arg2) = (X m c main_arg2) := (StretchesB.s1_arg2 (W4 m ρ c)).trans (w4_arg2 m ρ c)
theorem w5_arg5 : W5 m ρ c (Proc.devRef .tc main_arg5) = (X m c main_arg5) := (StretchesB.s1_arg5 (W4 m ρ c)).trans (w4_arg5 m ρ c)
theorem w5_arg6 : W5 m ρ c (Proc.devRef .tc main_arg6) = (X m c main_arg6) := (StretchesB.s1_arg6 (W4 m ρ c)).trans (w4_arg6 m ρ c)
theorem w5_arg7 : W5 m ρ c (Proc.devRef .tc main_arg7) = (X m c main_arg7) := (StretchesB.s1_arg7 (W4 m ρ c)).trans (w4_arg7 m ρ c)
theorem w5_arg8 : W5 m ρ c (Proc.devRef .tc main_arg8) = (X m c main_arg8) := (StretchesB.s1_arg8 (W4 m ρ c)).trans (w4_arg8 m ρ c)
theorem w5_arg9 : W5 m ρ c (Proc.devRef .tc main_arg9) = (X m c main_arg9) := (StretchesB.s1_arg9 (W4 m ρ c)).trans (w4_arg9 m ρ c)
theorem w5_arg10 : W5 m ρ c (Proc.devRef .tc main_arg10) = (X m c main_arg10) := (StretchesB.s1_arg10 (W4 m ρ c)).trans (w4_arg10 m ρ c)
theorem w5_arg11 : W5 m ρ c (Proc.devRef .tc main_arg11) = (X m c main_arg11) := (StretchesB.s1_arg11 (W4 m ρ c)).trans (w4_arg11 m ρ c)
theorem w5_arg12 : W5 m ρ c (Proc.devRef .tc main_arg12) = (X m c main_arg12) := (StretchesB.s1_arg12 (W4 m ρ c)).trans (w4_arg12 m ρ c)

/-! ## After region 1 -/

theorem w6_v46 : W6 m ρ c (Proc.devRef .tc main_v46) = Region1.biasReluProduct (aggregate (Region0.product (X m c main_arg0) (X m c main_arg3)) (X m c main_arg1)) (row256 (X m c main_arg4)) (X m c main_arg5) :=
  (W6_arr m ρ c 3).trans ((Region1.value (V5 m ρ) c).trans
    (by rw [show V5 m ρ c main_v44 = _ from w5_v44 m ρ c, show V5 m ρ c main_v45 = _ from w5_v45 m ρ c,
      show V5 m ρ c main_arg5 = _ from w5_arg5 m ρ c]))
theorem w6_v3 : W6 m ρ c (Proc.devRef .tc main_v3) = sources (X m c main_arg1) := (W6_of_ne m ρ c main_v3 (by decide)).trans (w5_v3 m ρ c)
theorem w6_v6 : W6 m ρ c (Proc.devRef .tc main_v6) = targets (X m c main_arg1) := (W6_of_ne m ρ c main_v6 (by decide)).trans (w5_v6 m ρ c)
theorem w6_v30 : W6 m ρ c (Proc.devRef .tc main_v30) = norm (X m c main_arg1) := (W6_of_ne m ρ c main_v30 (by decide)).trans (w5_v30 m ρ c)
theorem w6_arg2 : W6 m ρ c (Proc.devRef .tc main_arg2) = (X m c main_arg2) := (W6_of_ne m ρ c main_arg2 (by decide)).trans (w5_arg2 m ρ c)
theorem w6_arg6 : W6 m ρ c (Proc.devRef .tc main_arg6) = (X m c main_arg6) := (W6_of_ne m ρ c main_arg6 (by decide)).trans (w5_arg6 m ρ c)
theorem w6_arg7 : W6 m ρ c (Proc.devRef .tc main_arg7) = (X m c main_arg7) := (W6_of_ne m ρ c main_arg7 (by decide)).trans (w5_arg7 m ρ c)
theorem w6_arg8 : W6 m ρ c (Proc.devRef .tc main_arg8) = (X m c main_arg8) := (W6_of_ne m ρ c main_arg8 (by decide)).trans (w5_arg8 m ρ c)
theorem w6_arg9 : W6 m ρ c (Proc.devRef .tc main_arg9) = (X m c main_arg9) := (W6_of_ne m ρ c main_arg9 (by decide)).trans (w5_arg9 m ρ c)
theorem w6_arg10 : W6 m ρ c (Proc.devRef .tc main_arg10) = (X m c main_arg10) := (W6_of_ne m ρ c main_arg10 (by decide)).trans (w5_arg10 m ρ c)
theorem w6_arg11 : W6 m ρ c (Proc.devRef .tc main_arg11) = (X m c main_arg11) := (W6_of_ne m ρ c main_arg11 (by decide)).trans (w5_arg11 m ρ c)
theorem w6_arg12 : W6 m ρ c (Proc.devRef .tc main_arg12) = (X m c main_arg12) := (W6_of_ne m ρ c main_arg12 (by decide)).trans (w5_arg12 m ρ c)

/-! ## After the stretch that follows region 1: region 2's entry -/

theorem w7_v59 : W7 m ρ c (Proc.devRef .tc main_v59) = aggregate (Region1.biasReluProduct (aggregate (Region0.product (X m c main_arg0) (X m c main_arg3)) (X m c main_arg1)) (row256 (X m c main_arg4)) (X m c main_arg5)) (X m c main_arg1) :=
  (StretchesB.s2_v59 (W6 m ρ c)).trans (by rw [w6_v3 m ρ c, w6_v6 m ρ c, w6_v30 m ρ c, w6_v46 m ρ c]; rfl)
theorem w7_v60 : W7 m ρ c (Proc.devRef .tc main_v60) = row256 (X m c main_arg6) :=
  (StretchesB.s2_v60 (W6 m ρ c)).trans (by rw [w6_arg6 m ρ c])
theorem w7_v3 : W7 m ρ c (Proc.devRef .tc main_v3) = sources (X m c main_arg1) := (StretchesB.s2_v3 (W6 m ρ c)).trans (w6_v3 m ρ c)
theorem w7_v6 : W7 m ρ c (Proc.devRef .tc main_v6) = targets (X m c main_arg1) := (StretchesB.s2_v6 (W6 m ρ c)).trans (w6_v6 m ρ c)
theorem w7_v30 : W7 m ρ c (Proc.devRef .tc main_v30) = norm (X m c main_arg1) := (StretchesB.s2_v30 (W6 m ρ c)).trans (w6_v30 m ρ c)
theorem w7_arg2 : W7 m ρ c (Proc.devRef .tc main_arg2) = (X m c main_arg2) := (StretchesB.s2_arg2 (W6 m ρ c)).trans (w6_arg2 m ρ c)
theorem w7_arg7 : W7 m ρ c (Proc.devRef .tc main_arg7) = (X m c main_arg7) := (StretchesB.s2_arg7 (W6 m ρ c)).trans (w6_arg7 m ρ c)
theorem w7_arg8 : W7 m ρ c (Proc.devRef .tc main_arg8) = (X m c main_arg8) := (StretchesB.s2_arg8 (W6 m ρ c)).trans (w6_arg8 m ρ c)
theorem w7_arg9 : W7 m ρ c (Proc.devRef .tc main_arg9) = (X m c main_arg9) := (StretchesB.s2_arg9 (W6 m ρ c)).trans (w6_arg9 m ρ c)
theorem w7_arg10 : W7 m ρ c (Proc.devRef .tc main_arg10) = (X m c main_arg10) := (StretchesB.s2_arg10 (W6 m ρ c)).trans (w6_arg10 m ρ c)
theorem w7_arg11 : W7 m ρ c (Proc.devRef .tc main_arg11) = (X m c main_arg11) := (StretchesB.s2_arg11 (W6 m ρ c)).trans (w6_arg11 m ρ c)
theorem w7_arg12 : W7 m ρ c (Proc.devRef .tc main_arg12) = (X m c main_arg12) := (StretchesB.s2_arg12 (W6 m ρ c)).trans (w6_arg12 m ρ c)

/-! ## After region 2 -/

theorem w8_v61 : W8 m ρ c (Proc.devRef .tc main_v61) = Region1.biasReluProduct (aggregate (Region1.biasReluProduct (aggregate (Region0.product (X m c main_arg0) (X m c main_arg3)) (X m c main_arg1)) (row256 (X m c main_arg4)) (X m c main_arg5)) (X m c main_arg1)) (row256 (X m c main_arg6)) (X m c main_arg7) :=
  (W8_arr m ρ c 3).trans ((Region2.value (V7 m ρ) c).trans
    (by rw [show V7 m ρ c main_v59 = _ from w7_v59 m ρ c, show V7 m ρ c main_v60 = _ from w7_v60 m ρ c,
      show V7 m ρ c main_arg7 = _ from w7_arg7 m ρ c]))
theorem w8_v3 : W8 m ρ c (Proc.devRef .tc main_v3) = sources (X m c main_arg1) := (W8_of_ne m ρ c main_v3 (by decide)).trans (w7_v3 m ρ c)
theorem w8_v6 : W8 m ρ c (Proc.devRef .tc main_v6) = targets (X m c main_arg1) := (W8_of_ne m ρ c main_v6 (by decide)).trans (w7_v6 m ρ c)
theorem w8_v30 : W8 m ρ c (Proc.devRef .tc main_v30) = norm (X m c main_arg1) := (W8_of_ne m ρ c main_v30 (by decide)).trans (w7_v30 m ρ c)
theorem w8_arg2 : W8 m ρ c (Proc.devRef .tc main_arg2) = (X m c main_arg2) := (W8_of_ne m ρ c main_arg2 (by decide)).trans (w7_arg2 m ρ c)
theorem w8_arg8 : W8 m ρ c (Proc.devRef .tc main_arg8) = (X m c main_arg8) := (W8_of_ne m ρ c main_arg8 (by decide)).trans (w7_arg8 m ρ c)
theorem w8_arg9 : W8 m ρ c (Proc.devRef .tc main_arg9) = (X m c main_arg9) := (W8_of_ne m ρ c main_arg9 (by decide)).trans (w7_arg9 m ρ c)
theorem w8_arg10 : W8 m ρ c (Proc.devRef .tc main_arg10) = (X m c main_arg10) := (W8_of_ne m ρ c main_arg10 (by decide)).trans (w7_arg10 m ρ c)
theorem w8_arg11 : W8 m ρ c (Proc.devRef .tc main_arg11) = (X m c main_arg11) := (W8_of_ne m ρ c main_arg11 (by decide)).trans (w7_arg11 m ρ c)
theorem w8_arg12 : W8 m ρ c (Proc.devRef .tc main_arg12) = (X m c main_arg12) := (W8_of_ne m ρ c main_arg12 (by decide)).trans (w7_arg12 m ρ c)

/-! ## After the stretch that follows region 2: region 3's entry -/

theorem w9_v74 : W9 m ρ c (Proc.devRef .tc main_v74) = aggregate (Region1.biasReluProduct (aggregate (Region1.biasReluProduct (aggregate (Region0.product (X m c main_arg0) (X m c main_arg3)) (X m c main_arg1)) (row256 (X m c main_arg4)) (X m c main_arg5)) (X m c main_arg1)) (row256 (X m c main_arg6)) (X m c main_arg7)) (X m c main_arg1) :=
  (StretchesB.s3_v74 (W8 m ρ c)).trans (by rw [w8_v3 m ρ c, w8_v6 m ρ c, w8_v30 m ρ c, w8_v61 m ρ c]; rfl)
theorem w9_v75 : W9 m ρ c (Proc.devRef .tc main_v75) = row256 (X m c main_arg8) :=
  (StretchesB.s3_v75 (W8 m ρ c)).trans (by rw [w8_arg8 m ρ c])
theorem w9_arg2 : W9 m ρ c (Proc.devRef .tc main_arg2) = (X m c main_arg2) := (StretchesB.s3_arg2 (W8 m ρ c)).trans (w8_arg2 m ρ c)
theorem w9_arg9 : W9 m ρ c (Proc.devRef .tc main_arg9) = (X m c main_arg9) := (StretchesB.s3_arg9 (W8 m ρ c)).trans (w8_arg9 m ρ c)
theorem w9_arg10 : W9 m ρ c (Proc.devRef .tc main_arg10) = (X m c main_arg10) := (StretchesB.s3_arg10 (W8 m ρ c)).trans (w8_arg10 m ρ c)
theorem w9_arg11 : W9 m ρ c (Proc.devRef .tc main_arg11) = (X m c main_arg11) := (StretchesB.s3_arg11 (W8 m ρ c)).trans (w8_arg11 m ρ c)
theorem w9_arg12 : W9 m ρ c (Proc.devRef .tc main_arg12) = (X m c main_arg12) := (StretchesB.s3_arg12 (W8 m ρ c)).trans (w8_arg12 m ρ c)

/-! ## After region 3 -/

theorem w10_v76 : W10 m ρ c (Proc.devRef .tc main_v76) = Region3.biasRelu (aggregate (Region1.biasReluProduct (aggregate (Region1.biasReluProduct (aggregate (Region0.product (X m c main_arg0) (X m c main_arg3)) (X m c main_arg1)) (row256 (X m c main_arg4)) (X m c main_arg5)) (X m c main_arg1)) (row256 (X m c main_arg6)) (X m c main_arg7)) (X m c main_arg1)) (row256 (X m c main_arg8)) :=
  (W10_arr m ρ c 2).trans ((Region3.value (V9 m ρ) c).trans
    (by rw [show V9 m ρ c main_v74 = _ from w9_v74 m ρ c, show V9 m ρ c main_v75 = _ from w9_v75 m ρ c]))
theorem w10_arg2 : W10 m ρ c (Proc.devRef .tc main_arg2) = (X m c main_arg2) := (W10_of_ne m ρ c main_arg2 (by decide)).trans (w9_arg2 m ρ c)
theorem w10_arg9 : W10 m ρ c (Proc.devRef .tc main_arg9) = (X m c main_arg9) := (W10_of_ne m ρ c main_arg9 (by decide)).trans (w9_arg9 m ρ c)
theorem w10_arg10 : W10 m ρ c (Proc.devRef .tc main_arg10) = (X m c main_arg10) := (W10_of_ne m ρ c main_arg10 (by decide)).trans (w9_arg10 m ρ c)
theorem w10_arg11 : W10 m ρ c (Proc.devRef .tc main_arg11) = (X m c main_arg11) := (W10_of_ne m ρ c main_arg11 (by decide)).trans (w9_arg11 m ρ c)
theorem w10_arg12 : W10 m ρ c (Proc.devRef .tc main_arg12) = (X m c main_arg12) := (W10_of_ne m ρ c main_arg12 (by decide)).trans (w9_arg12 m ρ c)

/-! ## After the stretch that follows region 3: region 4's entry -/

theorem w11_v88 : W11 m ρ c (Proc.devRef .tc main_v88) = meanPool (Region3.biasRelu (aggregate (Region1.biasReluProduct (aggregate (Region1.biasReluProduct (aggregate (Region0.product (X m c main_arg0) (X m c main_arg3)) (X m c main_arg1)) (row256 (X m c main_arg4)) (X m c main_arg5)) (X m c main_arg1)) (row256 (X m c main_arg6)) (X m c main_arg7)) (X m c main_arg1)) (row256 (X m c main_arg8))) (X m c main_arg2) :=
  (StretchesB.s4_v88 (W10 m ρ c)).trans (by rw [w10_v76 m ρ c, w10_arg2 m ρ c])
theorem w11_v89 : W11 m ρ c (Proc.devRef .tc main_v89) = row128 (X m c main_arg10) :=
  (StretchesB.s4_v89 (W10 m ρ c)).trans (by rw [w10_arg10 m ρ c])
theorem w11_v90 : W11 m ρ c (Proc.devRef .tc main_v90) = row32 (X m c main_arg12) :=
  (StretchesB.s4_v90 (W10 m ρ c)).trans (by rw [w10_arg12 m ρ c])
theorem w11_arg9 : W11 m ρ c (Proc.devRef .tc main_arg9) = (X m c main_arg9) := (StretchesB.s4_arg9 (W10 m ρ c)).trans (w10_arg9 m ρ c)
theorem w11_arg11 : W11 m ρ c (Proc.devRef .tc main_arg11) = (X m c main_arg11) := (StretchesB.s4_arg11 (W10 m ρ c)).trans (w10_arg11 m ρ c)

/-! ## After region 4: the result -/

/-- The result buffer after the run holds the chain of functions of the launch contents of the thirteen arguments. -/
theorem result : W12 m ρ c (Proc.devRef .tc main_v91)
    = chain (X m c main_arg0) (X m c main_arg1) (X m c main_arg2) (X m c main_arg3) (X m c main_arg4) (X m c main_arg5) (X m c main_arg6) (X m c main_arg7) (X m c main_arg8) (X m c main_arg9) (X m c main_arg10) (X m c main_arg11) (X m c main_arg12) :=
  (W12_arr m ρ c 5).trans ((Region4.value (V11 m ρ) c).trans
    (by rw [show V11 m ρ c main_v88 = _ from w11_v88 m ρ c, show V11 m ρ c main_arg9 = _ from w11_arg9 m ρ c,
      show V11 m ρ c main_v89 = _ from w11_v89 m ρ c, show V11 m ρ c main_arg11 = _ from w11_arg11 m ρ c,
      show V11 m ρ c main_v90 = _ from w11_v90 m ρ c]; rfl))

end Cert.KernelIdeal.Value

end
-- ==== Proof.Join.lean ====
/-
  The reference, stage by stage, is the kernel's chain of functions.

  The reference's program is read one operation at a time by its generated stages `val_main_vN`. Its host chains are the
  kernel program's, operation for operation: the aggregation along the extended edges (three times) and the mean pool
  are the same terms, so those stages ARE the shared functions, by unfolding. Where the kernel runs a region the
  reference runs the plain jnp operations: a `dot_general`, which at an index is the sum over the contracted axis of the
  products — the region's matrix product into a zero accumulator; a bias broadcast over the rows and added; a maximum
  with zero. Read at an index, stage and region function are the same expression of the same entries once the two
  sides' index constructors are identified, coordinate by coordinate; a bias enters the kernel's regions as one row,
  the reshape of the vector, and row `(0, k)` of that reshape is entry `k`.
-/
import proofs.«172521_j83751862272702_1_alg».proof.Proof.RefReadPatched
import proofs.«172521_j83751862272702_1_alg».proof.Proof.HostChain
import proofs.«172521_j83751862272702_1_alg».proof.Proof.Region0
import proofs.«172521_j83751862272702_1_alg».proof.Proof.Region1
import proofs.«172521_j83751862272702_1_alg».proof.Proof.Region3
import proofs.«172521_j83751862272702_1_alg».proof.Proof.Region4
import proofs.«172521_j83751862272702_1_alg».proof.Proof.Chain

set_option maxRecDepth 16384

noncomputable section

namespace Cert.Join

open Idealize.ShloMosaic Idealize.ShloMosaic.TcCoe
open Cert.ReferenceIdeal.Read
open Cert.KernelIdeal.HostChain

variable (x0 : (⟨Cert.ReferenceIdeal.S50000x128, .f32⟩ : BufTy).Contents (Elt Ideal)) (x1 : (⟨Cert.ReferenceIdeal.S2x300000, .i32⟩ : BufTy).Contents (Elt Ideal)) (x2 : (⟨Cert.ReferenceIdeal.S50000, .i32⟩ : BufTy).Contents (Elt Ideal))
  (x3 : (⟨Cert.ReferenceIdeal.S128x256, .f32⟩ : BufTy).Contents (Elt Ideal)) (x4 : (⟨Cert.ReferenceIdeal.S256, .f32⟩ : BufTy).Contents (Elt Ideal)) (x5 : (⟨Cert.ReferenceIdeal.S256x256, .f32⟩ : BufTy).Contents (Elt Ideal)) (x6 : (⟨Cert.ReferenceIdeal.S256, .f32⟩ : BufTy).Contents (Elt Ideal))
  (x7 : (⟨Cert.ReferenceIdeal.S256x256, .f32⟩ : BufTy).Contents (Elt Ideal)) (x8 : (⟨Cert.ReferenceIdeal.S256, .f32⟩ : BufTy).Contents (Elt Ideal)) (x9 : (⟨Cert.ReferenceIdeal.S256x128, .f32⟩ : BufTy).Contents (Elt Ideal)) (x10 : (⟨Cert.ReferenceIdeal.S128, .f32⟩ : BufTy).Contents (Elt Ideal))
  (x11 : (⟨Cert.ReferenceIdeal.S128x32, .f32⟩ : BufTy).Contents (Elt Ideal)) (x12 : (⟨Cert.ReferenceIdeal.S32, .f32⟩ : BufTy).Contents (Elt Ideal))

/-! ## A bias as one row, read at its entries -/

/-- Entry `(0, q)` of a 256-entry vector reshaped to one row is entry `q` of the vector: the two have the same row-major
    position. -/
theorem row256_at (b : (⟨Cert.ReferenceIdeal.S256, .f32⟩ : BufTy).Contents (Elt Ideal)) (j : Cert.KernelIdeal.S1x256.Idx) (k : Cert.KernelIdeal.S256.Idx)
    (h : (k 0).val = (j 1).val) : row256 (F := Ideal) b j = b k := by
  unfold row256
  refine shapeCast_apply b _ j k ?_
  rw [Shape.rowMajor_val_one, Shape.rowMajor_val_two]
  have h0 : (j 0).val < 1 := (j 0).isLt
  show (k 0).val = (j 0).val * 256 + (j 1).val
  omega
/-- The same for 128 entries; -/
theorem row128_at (b : (⟨Cert.ReferenceIdeal.S128, .f32⟩ : BufTy).Contents (Elt Ideal)) (j : Cert.KernelIdeal.S1x128.Idx) (k : Cert.KernelIdeal.S128.Idx)
    (h : (k 0).val = (j 1).val) : row128 (F := Ideal) b j = b k := by
  unfold row128
  refine shapeCast_apply b _ j k ?_
  rw [Shape.rowMajor_val_one, Shape.rowMajor_val_two]
  have h0 : (j 0).val < 1 := (j 0).isLt
  show (k 0).val = (j 0).val * 128 + (j 1).val
  omega
/-- and for 32. -/
theorem row32_at (b : (⟨Cert.ReferenceIdeal.S32, .f32⟩ : BufTy).Contents (Elt Ideal)) (j : Cert.KernelIdeal.S1x32.Idx) (k : Cert.KernelIdeal.S32.Idx)
    (h : (k 0).val = (j 1).val) : row32 (F := Ideal) b j = b k := by
  unfold row32
  refine shapeCast_apply b _ j k ?_
  rw [Shape.rowMajor_val_one, Shape.rowMajor_val_two]
  have h0 : (j 0).val < 1 := (j 0).isLt
  show (k 0).val = (j 0).val * 32 + (j 1).val
  omega

/-! ## The first layer's transform -/

/-- The reference's first `dot_general` is region 0's product. -/
theorem first_transform : val_main_v31 (F := Ideal) x0 x3 = Cert.KernelIdeal.Region0.product x0 x3 := by
  funext i
  rw [val_main_v31_apply]
  unfold Cert.KernelIdeal.Region0.product
  refine Finset.sum_congr rfl fun k _ => ?_
  rw [show lidx_main_v31 i k = Cert.KernelIdeal.Region0.lrowA i k from funext fun a => Fin.ext (by
    match a with
    | ⟨0, _⟩ => rfl
    | ⟨1, _⟩ => rfl),
    show ridx_main_v31 i k = Cert.KernelIdeal.Region0.rcolA i k from funext fun a => Fin.ext (by
    match a with
    | ⟨0, _⟩ => rfl
    | ⟨1, _⟩ => rfl)]

/-- The reference's first aggregation is the shared one, of its first transform. -/
theorem first_aggregate : val_main_v44 (F := Ideal) x0 x1 x3 = aggregate (val_main_v31 (F := Ideal) x0 x3) x1 := rfl

/-! ## The second layer's transform -/

/-- The reference's bias, relu and second `dot_general` are region 1's function of its first aggregation, the bias as one
    row and the weight. -/
theorem second_transform : val_main_v49 (F := Ideal) x0 x1 x3 x4 x5
    = Cert.KernelIdeal.Region1.biasReluProduct (val_main_v44 (F := Ideal) x0 x1 x3) (row256 x4) x5 := by
  funext i
  rw [val_main_v49_apply]
  unfold Cert.KernelIdeal.Region1.biasReluProduct
  refine Finset.sum_congr rfl fun k _ => ?_
  rw [val_main_v48_apply, val_main_v47_apply, val_main_v46_apply, val_main_v45_apply, val_main_call1_v0_apply,
    val_main_call1_cst_apply,
    row256_at _ (Cert.KernelIdeal.Region1.biasA k) (idx_main_v45 (idx_main_v46 (lidx_main_v49 i k))) rfl,
    show lidx_main_v49 i k = Cert.KernelIdeal.Region1.lrowA i k from funext fun a => Fin.ext (by
    match a with
    | ⟨0, _⟩ => rfl
    | ⟨1, _⟩ => rfl),
    show ridx_main_v49 i k = Cert.KernelIdeal.Region1.rcolA i k from funext fun a => Fin.ext (by
    match a with
    | ⟨0, _⟩ => rfl
    | ⟨1, _⟩ => rfl)]
  rfl

/-- The reference's second aggregation is the shared one, of its second transform. -/
theorem second_aggregate : val_main_v62 (F := Ideal) x0 x1 x3 x4 x5
    = aggregate (val_main_v49 (F := Ideal) x0 x1 x3 x4 x5) x1 := rfl

/-! ## The third layer's transform -/

/-- The same for the third layer. -/
theorem third_transform : val_main_v67 (F := Ideal) x0 x1 x3 x4 x5 x6 x7
    = Cert.KernelIdeal.Region1.biasReluProduct (val_main_v62 (F := Ideal) x0 x1 x3 x4 x5) (row256 x6) x7 := by
  funext i
  rw [val_main_v67_apply]
  unfold Cert.KernelIdeal.Region1.biasReluProduct
  refine Finset.sum_congr rfl fun k _ => ?_
  rw [val_main_v66_apply, val_main_v65_apply, val_main_v64_apply, val_main_v63_apply, val_main_call2_v0_apply,
    val_main_call2_cst_apply,
    row256_at _ (Cert.KernelIdeal.Region1.biasA k) (idx_main_v63 (idx_main_v64 (lidx_main_v67 i k))) rfl,
    show lidx_main_v67 i k = Cert.KernelIdeal.Region1.lrowA i k from funext fun a => Fin.ext (by
    match a with
    | ⟨0, _⟩ => rfl
    | ⟨1, _⟩ => rfl),
    show ridx_main_v67 i k = Cert.KernelIdeal.Region1.rcolA i k from funext fun a => Fin.ext (by
    match a with
    | ⟨0, _⟩ => rfl
    | ⟨1, _⟩ => rfl)]
  rfl

/-- The reference's third aggregation is the shared one, of its third transform. -/
theorem third_aggregate : val_main_v80 (F := Ideal) x0 x1 x3 x4 x5 x6 x7
    = aggregate (val_main_v67 (F := Ideal) x0 x1 x3 x4 x5 x6 x7) x1 := rfl

/-! ## The last bias and relu, and the pool -/

/-- The reference's last bias and relu are region 3's function of its third aggregation and the bias as one row. -/
theorem last_activation : val_main_v84 (F := Ideal) x0 x1 x3 x4 x5 x6 x7 x8
    = Cert.KernelIdeal.Region3.biasRelu (val_main_v80 (F := Ideal) x0 x1 x3 x4 x5 x6 x7) (row256 x8) := by
  funext i
  rw [val_main_v84_apply, val_main_v83_apply, val_main_v82_apply, val_main_v81_apply, val_main_call3_v0_apply,
    val_main_call3_cst_apply]
  unfold Cert.KernelIdeal.Region3.biasRelu
  rw [row256_at _ (Cert.KernelIdeal.Region3.biasOf i) (idx_main_v81 (idx_main_v82 i)) rfl]
  rfl

/-- The reference's mean pool is the shared one, of its last activation. -/
theorem pooled : val_main_v96 (F := Ideal) x0 x1 x2 x3 x4 x5 x6 x7 x8
    = meanPool (val_main_v84 (F := Ideal) x0 x1 x3 x4 x5 x6 x7 x8) x2 := rfl

/-! ## The head -/

/-- The reference's two `dot_general`s with the biases and the relu between them are region 4's function of its pooled
    features, the weights, and the biases as one row each. -/
theorem head_eq : val_main_v105 (F := Ideal) x0 x1 x2 x3 x4 x5 x6 x7 x8 x9 x10 x11 x12
    = Cert.KernelIdeal.Region4.head (val_main_v96 (F := Ideal) x0 x1 x2 x3 x4 x5 x6 x7 x8) x9 (row128 x10) x11 (row32 x12) := by
  funext i
  rw [val_main_v105_apply, val_main_v104_apply, val_main_v103_apply, val_main_v102_apply]
  unfold Cert.KernelIdeal.Region4.head
  rw [row32_at _ (Cert.KernelIdeal.Region4.b2At i) (idx_main_v103 (idx_main_v104 i)) rfl]
  refine congrArg (· + x12 (idx_main_v103 (idx_main_v104 i))) (Finset.sum_congr rfl fun k2 _ => ?_)
  rw [val_main_v101_apply, val_main_v100_apply, val_main_v99_apply, val_main_v98_apply, val_main_call4_v0_apply,
    val_main_call4_cst_apply, val_main_v97_apply]
  unfold Cert.KernelIdeal.Region4.hidden
  generalize val_main_v96 (F := Ideal) x0 x1 x2 x3 x4 x5 x6 x7 x8 = pooledFeatures
  rw [row128_at _ (Cert.KernelIdeal.Region4.b1At k2) (idx_main_v98 (idx_main_v99 (lidx_main_v102 i k2))) rfl,
    show ridx_main_v102 i k2 = Cert.KernelIdeal.Region4.w2At i k2 from funext fun a => Fin.ext (by
    match a with
    | ⟨0, _⟩ => rfl
    | ⟨1, _⟩ => rfl)]
  have hs : (∑ k : Fin 256, pooledFeatures (lidx_main_v97 (lidx_main_v102 i k2) k) * x9 (ridx_main_v97 (lidx_main_v102 i k2) k))
      = ∑ k1 : Fin 256, pooledFeatures (Cert.KernelIdeal.Region4.featAt i k1) * x9 (Cert.KernelIdeal.Region4.w1At k1 k2) :=
    Finset.sum_congr rfl fun k1 _ => by
      rw [show lidx_main_v97 (lidx_main_v102 i k2) k1 = Cert.KernelIdeal.Region4.featAt i k1 from funext fun a => Fin.ext (by
    match a with
    | ⟨0, _⟩ => rfl
    | ⟨1, _⟩ => rfl),
        show ridx_main_v97 (lidx_main_v102 i k2) k1 = Cert.KernelIdeal.Region4.w1At k1 k2 from funext fun a => Fin.ext (by
    match a with
    | ⟨0, _⟩ => rfl
    | ⟨1, _⟩ => rfl)]
  rw [hs]
  rfl

/-! ## The whole chain -/

/-- The reference's result stage is the kernel's chain of functions of the thirteen arguments. -/
theorem reference_eq : val_main_v105 (F := Ideal) x0 x1 x2 x3 x4 x5 x6 x7 x8 x9 x10 x11 x12
    = Cert.KernelIdeal.chain x0 x1 x2 x3 x4 x5 x6 x7 x8 x9 x10 x11 x12 := by
  rw [head_eq, pooled, last_activation, third_aggregate, third_transform, second_aggregate, second_transform,
    first_aggregate, first_transform]
  rfl

end Cert.Join

end
-- ==== Proof.lean ====
/-
  A three-layer graph convolution, a mean pool over graphs and a two-layer head: the Pallas kernel against its jnp
  reference, equal on the extended reals.

  Both programs compute, for node features `x`, an edge index and graph ids: three times `aggregate (transform h)`, where
  the first transform is `x · W₁` and the next two are `relu (a + b) · W` of the previous aggregation `a`; then
  `relu (a + b₃)`, the mean of the rows over each graph, and `relu (p · W_f1 + b_f1) · W_f2 + b_f2`. The edge
  normalisation, the three aggregations (a gather of rows, a product with the norm, a scatter-add) and the pool are host
  operations in both programs, the same ones. The kernel's program runs the transforms, the last bias-and-relu and the
  head as five kernel regions over row blocks, with its matrix operands narrowed to bf16 and multiplied into a zero
  accumulator; the reference runs plain `dot_general`s, broadcasts, sums and maxima. On the extended reals the narrowing
  is the identity, a product into a zero accumulator is the sum over the contracted axis (zero plus a sum is the sum,
  infinities included), which is what `dot_general` is there, and the row blocks are restrictions of one whole-array
  function that together cover every row. So region by region the array a region leaves is the reference's stage, and
  both results are one and the same chain of functions of the thirteen arguments. No step needs the inputs to be
  finite: no term is moved across a sum and nothing is cancelled.

  The frames of the two kernel programs are their frame certificates; the reference's frame is its run with the result
  dropped. The ideal pass rewrote no operation, so there is nothing to preserve.
-/
import proofs.«172521_j83751862272702_1_alg».proof.Defs
import proofs.«172521_j83751862272702_1_alg».proof.Proof.Gen.Kernel
import proofs.«172521_j83751862272702_1_alg».proof.Proof.Gen.Kernel.Skeleton
import proofs.«172521_j83751862272702_1_alg».proof.Proof.Gen.Kernel.Launch
import proofs.«172521_j83751862272702_1_alg».proof.Proof.Gen.Kernel.Points
import proofs.«172521_j83751862272702_1_alg».proof.Proof.Gen.Kernel.Frame
import proofs.«172521_j83751862272702_1_alg».proof.Proof.Gen.KernelIdeal
import proofs.«172521_j83751862272702_1_alg».proof.Proof.Gen.KernelIdeal.Skeleton
import proofs.«172521_j83751862272702_1_alg».proof.Proof.Gen.KernelIdeal.Launch
import proofs.«172521_j83751862272702_1_alg».proof.Proof.Gen.KernelIdeal.Points
import proofs.«172521_j83751862272702_1_alg».proof.Proof.Gen.KernelIdeal.Frame
import proofs.«172521_j83751862272702_1_alg».proof.Proof.Gen.ReferenceIdeal
import proofs.«172521_j83751862272702_1_alg».proof.Proof.RefRunPatched
import proofs.«172521_j83751862272702_1_alg».proof.Proof.RefReadPatched
import proofs.«172521_j83751862272702_1_alg».proof.Proof.Gen.Pre_finite_inputs
import proofs.«172521_j83751862272702_1_alg».proof.Proof.KernelRun
import proofs.«172521_j83751862272702_1_alg».proof.Proof.KernelValue
import proofs.«172521_j83751862272702_1_alg».proof.Proof.Join
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the thirteen arguments both programs end with the chain of functions of those arguments:
    the kernel's run leaves it in the result buffer (the fold of its twelve segments, read boundary by boundary), and the
    reference's run leaves its composed term, which read stage by stage is the same chain. -/
theorem algebraic : Cert.algebraic_KernelIdeal_ReferenceIdeal := by
  intro m ρ m' ρ' _ hagree
  refine ⟨fun c => Cert.KernelIdeal.chain (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12)), ?_, ?_⟩
  · exact (θ_run Cert.KernelIdeal.defs _ _).mono
      (fun r h c => ⟨(h c).1.trans (Cert.KernelIdeal.Value.result m ρ c), (h c).2⟩) (Cert.KernelIdeal.ResultRun.run_result m ρ)
  · refine (θ_run Cert.ReferenceIdeal.defs _ _).mono (fun r h c => ⟨(h c).1.trans ?_, (h c).2⟩) (Cert.ReferenceIdeal.Value.run (F := Ideal) m' ρ')
    rw [Cert.ReferenceIdeal.Read.val_main_v105_eq m' c, Cert.Join.reference_eq,
      (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
